-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x256 : Shape := ⟨2, ![150000, 256]⟩
abbrev S150000 : Shape := ⟨1, ![150000]⟩
abbrev S256x256 : Shape := ⟨2, ![256, 256]⟩
abbrev S256 : Shape := ⟨1, ![256]⟩
abbrev S768x256 : Shape := ⟨2, ![768, 256]⟩
abbrev S_ : Shape := ⟨0, ![]⟩

class Facts : Prop where
  bcast_S_S150000x256 : S_.BroadcastsInDim S150000x256 (![] : Fin 0 → Fin S150000x256.rank)
  reducesTo_S150000x256_S_d0_1 : S150000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_

variable [Facts]

def fn_part2 {F : FTy → Type} [FloatOps F] (main_arg11 : FVec F S256 .f32) (main_arg12 : FVec F S768x256 .f32) (main_arg13 : FVec F S256 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S768x256 .f32 := Host.absf main_arg12
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg8 : FVec F S256x256 .f32) (main_arg9 : FVec F S256 .f32) (main_arg10 : FVec F S768x256 .f32) (main_arg11 : FVec F S256 .f32) (main_arg12 : FVec F S768x256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S768x256 .f32 := Host.absf main_arg10
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg11 main_arg12 main_arg13 main_v33

def fn {F : FTy → Type} [FloatOps F] (main_arg0 : FVec F S150000x256 .f32) (main_arg1 : FVec F S150000x256 .f32) (main_arg2 : IVec S150000 32) (main_arg3 : IVec S150000 32) (main_arg4 : IVec S150000 32) (main_arg5 : IVec S150000 32) (main_arg6 : FVec F S256x256 .f32) (main_arg7 : FVec F S256 .f32) (main_arg8 : FVec F S256x256 .f32) (main_arg9 : FVec F S256 .f32) (main_arg10 : FVec F S768x256 .f32) (main_arg11 : FVec F S256 .f32) (main_arg12 : FVec F S768x256 .f32) (main_arg13 : FVec F S256 .f32) : IVec S_ 1 :=
  let main_v0 : FVec F S150000x256 .f32 := Host.absf main_arg0
  let main_cst : FVec F S_ .f32 := constant S_ .f32 0x7F800000#32
  let main_v1 : FVec F S150000x256 .f32 := broadcastInDim S150000x256 ![] bcast_S_S150000x256 main_cst
  let main_v2 : IVec S150000x256 1 := cmpf .olt main_v0 main_v1
  let main_c : IVec S_ 1 := constantI S_ 1 1#1
  let main_v3 : IVec S_ 1 := (fun x v => Host.reduce IntOp.andi x v reducesTo_S150000x256_S_d0_1 h_S_) main_v2 main_c
  let main_v4 : FVec F S150000x256 .f32 := Host.absf main_arg1
  let main_cst_0 : FVec F S_ .f32 := constant S_ .f32 0x7F800000#32
  let main_v5 : FVec F S150000x256 .f32 := broadcastInDim S150000x256 ![] bcast_S_S150000x256 main_cst_0
  let main_v6 : IVec S150000x256 1 := cmpf .olt main_v4 main_v5
  let main_c_1 : IVec S_ 1 := constantI S_ 1 1#1
  let main_v7 : IVec S_ 1 := (fun x v => Host.reduce IntOp.andi x v reducesTo_S150000x256_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_v13 main_v16
-- ==== Kernel.lean ====
abbrev S150000x256 : Shape := ⟨2, ![150000, 256]⟩
abbrev S150000 : Shape := ⟨1, ![150000]⟩
abbrev S256x256 : Shape := ⟨2, ![256, 256]⟩
abbrev S256 : Shape := ⟨1, ![256]⟩
abbrev S768x256 : Shape := ⟨2, ![768, 256]⟩
abbrev S1x256 : Shape := ⟨2, ![1, 256]⟩
abbrev S5000x256 : Shape := ⟨2, ![5000, 256]⟩
abbrev S_ : Shape := ⟨0, ![]⟩
abbrev S50000x256 : Shape := ⟨2, ![50000, 256]⟩
abbrev S150000x1 : Shape := ⟨2, ![150000, 1]⟩
abbrev S50000x1 : Shape := ⟨2, ![50000, 1]⟩
abbrev S3000x256 : Shape := ⟨2, ![3000, 256]⟩

abbrev nBuf : Space → Nat
  | .hbm => 98
  | .vmem => 36
  | .smem => 0
  | _ => 0

abbrev bufTy : (tb : Table) → Fin (tcTables nBuf tb) → BufTy
  | .hbm, ⟨0, _⟩ => ⟨S150000x256, .f32⟩
  | .hbm, ⟨1, _⟩ => ⟨S150000x256, .f32⟩
  | .hbm, ⟨2, _⟩ => ⟨S150000, .i32⟩
  | .hbm, ⟨3, _⟩ => ⟨S150000, .i32⟩
  | .hbm, ⟨4, _⟩ => ⟨S150000, .i32⟩
  | .hbm, ⟨5, _⟩ => ⟨S150000, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S768x256, .f32⟩
  | .hbm, ⟨11, _⟩ => ⟨S256, .f32⟩
  | .hbm, ⟨12, _⟩ => ⟨S768x256, .f32⟩
  | .hbm, ⟨13, _⟩ => ⟨S256, .f32⟩
  | .hbm, ⟨14, _⟩ => ⟨S1x256, .f32⟩
  | .hbm, ⟨15, _⟩ => ⟨S150000x256, .bf16⟩
  | .hbm, ⟨16, _⟩ => ⟨S1x256, .f32⟩
  | .hbm, ⟨17, _⟩ => ⟨S150000x256, .bf16⟩
  | .hbm, ⟨18, _⟩ => ⟨S150000x256, .f32⟩
  | .hbm, ⟨19, _⟩ => ⟨S_, .f32⟩
  | .hbm, ⟨20, _⟩ => ⟨S50000x256, .f32⟩
  | .hbm, ⟨21, _⟩ => ⟨S150000x1, .i32⟩
  | .hbm, ⟨22, _⟩ => ⟨S50000x256, .f32⟩
  | .hbm, ⟨23, _⟩ => ⟨S_, .f32⟩
  | .hbm, ⟨24, _⟩ => ⟨S150000x1, .f32⟩
  | .hbm, ⟨25, _⟩ => ⟨S_, .f32⟩
  | .hbm, ⟨26, _⟩ => ⟨S50000x1, .f32⟩
  | .hbm, ⟨27, _⟩ => ⟨S150000x1, .i32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S150000x256, .f32⟩
  | .hbm, ⟨35, _⟩ => ⟨S_, .f32⟩
  | .hbm, ⟨36, _⟩ => ⟨S50000x256, .f32⟩
  | .hbm, ⟨37, _⟩ => ⟨S150000x1, .i32⟩
  | .hbm, ⟨38, _⟩ => ⟨S50000x256, .f32⟩
  | .hbm, ⟨39, _⟩ => ⟨S_, .f32⟩
  | .hbm, ⟨40, _⟩ => ⟨S150000x1, .f32⟩
  | .hbm, ⟨41, _⟩ => ⟨S_, .f32⟩
  | .hbm, ⟨42, _⟩ => ⟨S50000x1, .f32⟩
  | .hbm, ⟨43, _⟩ => ⟨S150000x1, .i32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .f32⟩
  | .hbm, ⟨48, _⟩ => ⟨S50000x256, .f32⟩
  | .hbm, ⟨49, _⟩ => ⟨S50000x256, .f32⟩
  | .hbm, ⟨50, _⟩ => ⟨S50000x256, .bf16⟩
  | .hbm, ⟨51, _⟩ => ⟨S50000x256, .bf16⟩
  | .hbm, ⟨52, _⟩ => ⟨S_, .i32⟩
  | .hbm, ⟨53, _⟩ => ⟨S150000, .i32⟩
  | .hbm, ⟨54, _⟩ => ⟨S150000, .i1⟩
  | .hbm, ⟨55, _⟩ => ⟨S_, .i32⟩
  | .hbm, ⟨56, _⟩ => ⟨S150000, .i32⟩
  | .hbm, ⟨57, _⟩ => ⟨S150000, .i32⟩
  | .hbm, ⟨58, _⟩ => ⟨S150000, .i32⟩
  | .hbm, ⟨59, _⟩ => ⟨S150000x1, .i32⟩
  | .hbm, ⟨60, _⟩ => ⟨S150000x256, .bf16⟩
  | .hbm, ⟨61, _⟩ => ⟨S_, .i32⟩
  | .hbm, ⟨62, _⟩ => ⟨S150000, .i32⟩
  | .hbm, ⟨63, _⟩ => ⟨S150000, .i1⟩
  | .hbm, ⟨64, _⟩ => ⟨S_, .i32⟩
  | .hbm, ⟨65, _⟩ => ⟨S150000, .i32⟩
  | .hbm, ⟨66, _⟩ => ⟨S150000, .i32⟩
  | .hbm, ⟨67, _⟩ => ⟨S150000, .i32⟩
  | .hbm, ⟨68, _⟩ => ⟨S150000x1, .i32⟩
  | .hbm, ⟨69, _⟩ => ⟨S150000x256, .bf16⟩
  | .hbm, ⟨70, _⟩ => ⟨S_, .i32⟩
  | .hbm, ⟨71, _⟩ => ⟨S150000, .i32⟩
  | .hbm, ⟨72, _⟩ => ⟨S150000, .i1⟩
  | .hbm, ⟨73, _⟩ => ⟨S_, .i32⟩
  | .hbm, ⟨74, _⟩ => ⟨S150000, .i32⟩
  | .hbm, ⟨75, _⟩ => ⟨S150000, .i32⟩
  | .hbm, ⟨76, _⟩ => ⟨S150000, .i32⟩
  | .hbm, ⟨77, _⟩ => ⟨S150000x1, .i32⟩
  | .hbm, ⟨78, _⟩ => ⟨S150000x256, .bf16⟩
  | .hbm, ⟨79, _⟩ => ⟨S_, .i32⟩
  | .hbm, ⟨80, _⟩ => ⟨S150000, .i32⟩
  | .hbm, ⟨81, _⟩ => ⟨S150000, .i1⟩
  | .hbm, ⟨82, _⟩ => ⟨S_, .i32⟩
  | .hbm, ⟨83, _⟩ => ⟨S150000, .i32⟩
  | .hbm, ⟨84, _⟩ => ⟨S150000, .i32⟩
  | .hbm, ⟨85, _⟩ => ⟨S150000, .i32⟩
  | .hbm, ⟨86, _⟩ => ⟨S150000x1, .i32⟩
  | .hbm, ⟨87, _⟩ => ⟨S150000x256, .bf16⟩
  | .hbm, ⟨88, _⟩ => ⟨S256x256, .f32⟩
  | .hbm, ⟨89, _⟩ => ⟨S256x256, .f32⟩
  | .hbm, ⟨90, _⟩ => ⟨S256x256, .f32⟩
  | .hbm, ⟨91, _⟩ => ⟨S1x256, .f32⟩
  | .hbm, ⟨92, _⟩ => ⟨S150000x256, .f32⟩
  | .hbm, ⟨93, _⟩ => ⟨S256x256, .f32⟩
  | .hbm, ⟨94, _⟩ => ⟨S256x256, .f32⟩
  | .hbm, ⟨95, _⟩ => ⟨S256x256, .f32⟩
  | .hbm, ⟨96, _⟩ => ⟨S1x256, .f32⟩
  | .hbm, ⟨97, _⟩ => ⟨S150000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .bf16⟩
  | .local _ .vmem, ⟨5, _⟩ => ⟨S5000x256, .bf16⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .bf16⟩
  | .local _ .vmem, ⟨11, _⟩ => ⟨S5000x256, .bf16⟩
  | .local _ .vmem, ⟨12, _⟩ => ⟨S3000x256, .f32⟩
  | .local _ .vmem, ⟨13, _⟩ => ⟨S3000x256, .f32⟩
  | .local _ .vmem, ⟨14, _⟩ => ⟨S3000x256, .bf16⟩
  | .local _ .vmem, ⟨15, _⟩ => ⟨S3000x256, .bf16⟩
  | .local _ .vmem, ⟨16, _⟩ => ⟨S3000x256, .bf16⟩
  | .local _ .vmem, ⟨17, _⟩ => ⟨S3000x256, .bf16⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S1x256, .f32⟩
  | .local _ .vmem, ⟨22, _⟩ => ⟨S3000x256, .f32⟩
  | .local _ .vmem, ⟨23, _⟩ => ⟨S3000x256, .f32⟩
  | .local _ .vmem, ⟨24, _⟩ => ⟨S3000x256, .f32⟩
  | .local _ .vmem, ⟨25, _⟩ => ⟨S3000x256, .f32⟩
  | .local _ .vmem, ⟨26, _⟩ => ⟨S3000x256, .bf16⟩
  | .local _ .vmem, ⟨27, _⟩ => ⟨S3000x256, .bf16⟩
  | .local _ .vmem, ⟨28, _⟩ => ⟨S3000x256, .bf16⟩
  | .local _ .vmem, ⟨29, _⟩ => ⟨S3000x256, .bf16⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S1x256, .f32⟩
  | .local _ .vmem, ⟨34, _⟩ => ⟨S3000x256, .f32⟩
  | .local _ .vmem, ⟨35, _⟩ => ⟨S3000x256, .f32⟩
  | _, _ => ⟨S150000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_12 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S3000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3000x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S3000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  packedbf16_S5000x256_S5000x256_0_0 : (Rect.unit (s := S5000x256) ![0, 0] S5000x256.size inb_S5000x256_S5000x256_0_0).PackedRows (EltTy.packing .bf16)
  bcast_S_S50000x256 : S_.BroadcastsInDim S50000x256 (![] : Fin 0 → Fin S50000x256.rank)
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S150000 : S_.BroadcastsInDim S150000 (![] : Fin 0 → Fin S150000.rank)
  slices_S768x256_S256x256_0_0 : S768x256.Slices ![0, 0] S256x256
  slices_S768x256_S256x256_256_0 : S768x256.Slices ![256, 0] S256x256
  slices_S768x256_S256x256_512_0 : S768x256.Slices ![512, 0] S256x256
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  shapeCasts_S256x256_S256x256 : S256x256.ShapeCasts S256x256
  broadcasts_S1x256_S3000x256 : S1x256.Broadcasts S3000x256
  dot_S5000x256_S256x256_S5000x256_1_0_0_1_n_n_wf : DotDims.WF S5000x256 S256x256 S5000x256 [1] [0] [0] [1] [] []
  scatter_S50000x256_S150000x1_S150000x256_1_0_0_1_wf : ScatterDims.WF S50000x256 S150000x1 S150000x256 [1] [0] [0] 1
  scatter_S50000x1_S150000x1_S150000x1_1_0_0_1_wf : ScatterDims.WF S50000x1 S150000x1 S150000x1 [1] [0] [0] 1
  gather_S50000x256_S150000x1_S150000x256_1_0_n_n_0_1_1256_wf : GatherDims.WF S50000x256 S150000x1 S150000x256 [1] [0] [] [0] [] 1 ![1, 256]
  dot_S3000x256_S256x256_S3000x256_1_0_0_1_n_n_wf : DotDims.WF S3000x256 S256x256 S3000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S150000x256.size a
  hwx0_0 : ∀ i : grid0.Coords, EltTy.bits .f32 = 32 ∨ (Rect.block (s := S150000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S150000x256.size a
  hwx0_3 : ∀ i : grid0.Coords, EltTy.bits .bf16 = 32 ∨ (Rect.block (s := S150000x256) S5000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S150000x256.size a
  hwx1_0 : ∀ i : grid1.Coords, EltTy.bits .f32 = 32 ∨ (Rect.block (s := S150000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S150000x256.size a
  hwx1_3 : ∀ i : grid1.Coords, EltTy.bits .bf16 = 32 ∨ (Rect.block (s := S150000x256) S5000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x256.size a ≤ S150000x256.size a
  hwx2_0 : ∀ i : grid2.Coords, EltTy.bits .f32 = 32 ∨ (Rect.block (s := S150000x256) S3000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x256.size a ≤ S150000x256.size a
  hwx2_1 : ∀ i : grid2.Coords, EltTy.bits .bf16 = 32 ∨ (Rect.block (s := S150000x256) S3000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x256.size a ≤ S150000x256.size a
  hwx2_2 : ∀ i : grid2.Coords, EltTy.bits .bf16 = 32 ∨ (Rect.block (s := S150000x256) S3000x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3000x256.size a ≤ S150000x256.size a
  hwx2_7 : ∀ i : grid2.Coords, EltTy.bits .f32 = 32 ∨ (Rect.block (s := S150000x256) S3000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3000x256.size a ≤ S150000x256.size a
  hwx3_0 : ∀ i : grid3.Coords, EltTy.bits .f32 = 32 ∨ (Rect.block (s := S150000x256) S3000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3000x256.size a ≤ S150000x256.size a
  hwx3_1 : ∀ i : grid3.Coords, EltTy.bits .bf16 = 32 ∨ (Rect.block (s := S150000x256) S3000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3000x256.size a ≤ S150000x256.size a
  hwx3_2 : ∀ i : grid3.Coords, EltTy.bits .bf16 = 32 ∨ (Rect.block (s := S150000x256) S3000x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S3000x256.size a ≤ S150000x256.size a
  hwx3_7 : ∀ i : grid3.Coords, EltTy.bits .f32 = 32 ∨ (Rect.block (s := S150000x256) S3000x256.size (cc3_transform_7 i) (hinb3_7 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000x256_S150000x1_S150000x256_1_0_0_1 : ScatterDims S50000x256 S150000x1 S150000x256 where
  updateWindowDims := [1]
  insertedWindowDims := [0]
  scatterDimsToOperandDims := [0]
  indexVectorDim := 1
  wf := scatter_S50000x256_S150000x1_S150000x256_1_0_0_1_wf
def scatter_S50000x1_S150000x1_S150000x1_1_0_0_1 : ScatterDims S50000x1 S150000x1 S150000x1 where
  updateWindowDims := [1]
  insertedWindowDims := [0]
  scatterDimsToOperandDims := [0]
  indexVectorDim := 1
  wf := scatter_S50000x1_S150000x1_S150000x1_1_0_0_1_wf
def gather_S50000x256_S150000x1_S150000x256_1_0_n_n_0_1_1256 : GatherDims S50000x256 S150000x1 S150000x256 where
  offsetDims := [1]
  collapsedSliceDims := [0]
  operandBatchingDims := []
  startIndicesBatchingDims := []
  startIndexMap := [0]
  indexVectorDim := 1
  sliceSizes := ![1, 256]
  wf := gather_S50000x256_S150000x1_S150000x256_1_0_n_n_0_1_1256_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S3000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S3000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S3000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v58) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62) S3000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg1) S3000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S3000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S3000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v67) S3000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S150000x256 : Shape := ⟨2, ![150000, 256]⟩
abbrev S150000 : Shape := ⟨1, ![150000]⟩
abbrev S256x256 : Shape := ⟨2, ![256, 256]⟩
abbrev S256 : Shape := ⟨1, ![256]⟩
abbrev S768x256 : Shape := ⟨2, ![768, 256]⟩
abbrev S1x256 : Shape := ⟨2, ![1, 256]⟩
abbrev S_ : Shape := ⟨0, ![]⟩
abbrev S50000x256 : Shape := ⟨2, ![50000, 256]⟩
abbrev S150000x1 : Shape := ⟨2, ![150000, 1]⟩
abbrev S50000x1 : Shape := ⟨2, ![50000, 1]⟩
abbrev S150000x768 : Shape := ⟨2, ![150000, 768]⟩

abbrev nBuf : Space → Nat
  | .hbm => 112
  | .vmem => 0
  | .smem => 0
  | _ => 0

abbrev bufTy : (tb : Table) → Fin (tcTables nBuf tb) → BufTy
  | .hbm, ⟨0, _⟩ => ⟨S150000x256, .f32⟩
  | .hbm, ⟨1, _⟩ => ⟨S150000x256, .f32⟩
  | .hbm, ⟨2, _⟩ => ⟨S150000, .i32⟩
  | .hbm, ⟨3, _⟩ => ⟨S150000, .i32⟩
  | .hbm, ⟨4, _⟩ => ⟨S150000, .i32⟩
  | .hbm, ⟨5, _⟩ => ⟨S150000, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S768x256, .f32⟩
  | .hbm, ⟨11, _⟩ => ⟨S256, .f32⟩
  | .hbm, ⟨12, _⟩ => ⟨S768x256, .f32⟩
  | .hbm, ⟨13, _⟩ => ⟨S256, .f32⟩
  | .hbm, ⟨14, _⟩ => ⟨S150000x256, .f32⟩
  | .hbm, ⟨15, _⟩ => ⟨S1x256, .f32⟩
  | .hbm, ⟨16, _⟩ => ⟨S150000x256, .f32⟩
  | .hbm, ⟨17, _⟩ => ⟨S150000x256, .f32⟩
  | .hbm, ⟨18, _⟩ => ⟨S_, .f32⟩
  | .hbm, ⟨19, _⟩ => ⟨S150000x256, .f32⟩
  | .hbm, ⟨20, _⟩ => ⟨S150000x256, .i1⟩
  | .hbm, ⟨21, _⟩ => ⟨S_, .f32⟩
  | .hbm, ⟨22, _⟩ => ⟨S150000x256, .f32⟩
  | .hbm, ⟨23, _⟩ => ⟨S150000x256, .f32⟩
  | .hbm, ⟨24, _⟩ => ⟨S150000x256, .f32⟩
  | .hbm, ⟨25, _⟩ => ⟨S150000x256, .f32⟩
  | .hbm, ⟨26, _⟩ => ⟨S1x256, .f32⟩
  | .hbm, ⟨27, _⟩ => ⟨S150000x256, .f32⟩
  | .hbm, ⟨28, _⟩ => ⟨S150000x256, .f32⟩
  | .hbm, ⟨29, _⟩ => ⟨S_, .f32⟩
  | .hbm, ⟨30, _⟩ => ⟨S150000x256, .f32⟩
  | .hbm, ⟨31, _⟩ => ⟨S150000x256, .i1⟩
  | .hbm, ⟨32, _⟩ => ⟨S_, .f32⟩
  | .hbm, ⟨33, _⟩ => ⟨S150000x256, .f32⟩
  | .hbm, ⟨34, _⟩ => ⟨S150000x256, .f32⟩
  | .hbm, ⟨35, _⟩ => ⟨S150000x256, .f32⟩
  | .hbm, ⟨36, _⟩ => ⟨S_, .f32⟩
  | .hbm, ⟨37, _⟩ => ⟨S50000x256, .f32⟩
  | .hbm, ⟨38, _⟩ => ⟨S150000x1, .i32⟩
  | .hbm, ⟨39, _⟩ => ⟨S50000x256, .f32⟩
  | .hbm, ⟨40, _⟩ => ⟨S_, .f32⟩
  | .hbm, ⟨41, _⟩ => ⟨S150000x1, .f32⟩
  | .hbm, ⟨42, _⟩ => ⟨S_, .f32⟩
  | .hbm, ⟨43, _⟩ => ⟨S50000x1, .f32⟩
  | .hbm, ⟨44, _⟩ => ⟨S150000x1, .i32⟩
  | .hbm, ⟨45, _⟩ => ⟨S50000x1, .f32⟩
  | .hbm, ⟨46, _⟩ => ⟨S_, .f32⟩
  | .hbm, ⟨47, _⟩ => ⟨S50000x1, .f32⟩
  | .hbm, ⟨48, _⟩ => ⟨S50000x1, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S150000x1, .i32⟩
  | .hbm, ⟨54, _⟩ => ⟨S50000x256, .f32⟩
  | .hbm, ⟨55, _⟩ => ⟨S_, .f32⟩
  | .hbm, ⟨56, _⟩ => ⟨S150000x1, .f32⟩
  | .hbm, ⟨57, _⟩ => ⟨S_, .f32⟩
  | .hbm, ⟨58, _⟩ => ⟨S50000x1, .f32⟩
  | .hbm, ⟨59, _⟩ => ⟨S150000x1, .i32⟩
  | .hbm, ⟨60, _⟩ => ⟨S50000x1, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S_, .i32⟩
  | .hbm, ⟨67, _⟩ => ⟨S150000, .i32⟩
  | .hbm, ⟨68, _⟩ => ⟨S150000, .i1⟩
  | .hbm, ⟨69, _⟩ => ⟨S_, .i32⟩
  | .hbm, ⟨70, _⟩ => ⟨S150000, .i32⟩
  | .hbm, ⟨71, _⟩ => ⟨S150000, .i32⟩
  | .hbm, ⟨72, _⟩ => ⟨S150000, .i32⟩
  | .hbm, ⟨73, _⟩ => ⟨S150000x1, .i32⟩
  | .hbm, ⟨74, _⟩ => ⟨S150000x256, .f32⟩
  | .hbm, ⟨75, _⟩ => ⟨S_, .i32⟩
  | .hbm, ⟨76, _⟩ => ⟨S150000, .i32⟩
  | .hbm, ⟨77, _⟩ => ⟨S150000, .i1⟩
  | .hbm, ⟨78, _⟩ => ⟨S_, .i32⟩
  | .hbm, ⟨79, _⟩ => ⟨S150000, .i32⟩
  | .hbm, ⟨80, _⟩ => ⟨S150000, .i32⟩
  | .hbm, ⟨81, _⟩ => ⟨S150000, .i32⟩
  | .hbm, ⟨82, _⟩ => ⟨S150000x1, .i32⟩
  | .hbm, ⟨83, _⟩ => ⟨S150000x256, .f32⟩
  | .hbm, ⟨84, _⟩ => ⟨S150000x768, .f32⟩
  | .hbm, ⟨85, _⟩ => ⟨S150000x256, .f32⟩
  | .hbm, ⟨86, _⟩ => ⟨S1x256, .f32⟩
  | .hbm, ⟨87, _⟩ => ⟨S150000x256, .f32⟩
  | .hbm, ⟨88, _⟩ => ⟨S150000x256, .f32⟩
  | .hbm, ⟨89, _⟩ => ⟨S_, .i32⟩
  | .hbm, ⟨90, _⟩ => ⟨S150000, .i32⟩
  | .hbm, ⟨91, _⟩ => ⟨S150000, .i1⟩
  | .hbm, ⟨92, _⟩ => ⟨S_, .i32⟩
  | .hbm, ⟨93, _⟩ => ⟨S150000, .i32⟩
  | .hbm, ⟨94, _⟩ => ⟨S150000, .i32⟩
  | .hbm, ⟨95, _⟩ => ⟨S150000, .i32⟩
  | .hbm, ⟨96, _⟩ => ⟨S150000x1, .i32⟩
  | .hbm, ⟨97, _⟩ => ⟨S150000x256, .f32⟩
  | .hbm, ⟨98, _⟩ => ⟨S_, .i32⟩
  | .hbm, ⟨99, _⟩ => ⟨S150000, .i32⟩
  | .hbm, ⟨100, _⟩ => ⟨S150000, .i1⟩
  | .hbm, ⟨101, _⟩ => ⟨S_, .i32⟩
  | .hbm, ⟨102, _⟩ => ⟨S150000, .i32⟩
  | .hbm, ⟨103, _⟩ => ⟨S150000, .i32⟩
  | .hbm, ⟨104, _⟩ => ⟨S150000, .i32⟩
  | .hbm, ⟨105, _⟩ => ⟨S150000x1, .i32⟩
  | .hbm, ⟨106, _⟩ => ⟨S150000x256, .f32⟩
  | .hbm, ⟨107, _⟩ => ⟨S150000x768, .f32⟩
  | .hbm, ⟨108, _⟩ => ⟨S150000x256, .f32⟩
  | .hbm, ⟨109, _⟩ => ⟨S1x256, .f32⟩
  | .hbm, ⟨110, _⟩ => ⟨S150000x256, .f32⟩
  | .hbm, ⟨111, _⟩ => ⟨S150000x256, .f32⟩
  | _, _ => ⟨S150000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_cst_0 : Ref sig .tc := ⟨.hbm, 32, rfl⟩
abbrev main_call1_v2 : Ref sig .tc := ⟨.hbm, 33, rfl⟩
abbrev main_call1_v3 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_0 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_4 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_8 : Ref sig .tc := ⟨.hbm, 75, rfl⟩
abbrev main_v39 : Ref sig .tc := ⟨.hbm, 76, rfl⟩
abbrev main_v40 : Ref sig .tc := ⟨.hbm, 77, rfl⟩
abbrev main_c_9 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_10 : Ref sig .tc := ⟨.hbm, 89, rfl⟩
abbrev main_v51 : Ref sig .tc := ⟨.hbm, 90, rfl⟩
abbrev main_v52 : Ref sig .tc := ⟨.hbm, 91, rfl⟩
abbrev main_c_11 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_12 : Ref sig .tc := ⟨.hbm, 98, rfl⟩
abbrev main_v58 : Ref sig .tc := ⟨.hbm, 99, rfl⟩
abbrev main_v59 : Ref sig .tc := ⟨.hbm, 100, rfl⟩
abbrev main_c_13 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S150000x256_0_1 : S1x256.BroadcastsInDim S150000x256 (![0, 1] : Fin 2 → Fin S150000x256.rank)
  bcast_S_S150000x256 : S_.BroadcastsInDim S150000x256 (![] : Fin 0 → Fin S150000x256.rank)
  bcast_S_S50000x256 : S_.BroadcastsInDim S50000x256 (![] : Fin 0 → Fin S50000x256.rank)
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S150000 : S_.BroadcastsInDim S150000 (![] : Fin 0 → Fin S150000.rank)
  concatenates_S150000x256_S150000x256_S150000x256_S150000x768_d1 : Shape.Concatenates [S150000x256, S150000x256, S150000x256] S150000x768 1
  dot_S150000x256_S256x256_S150000x256_1_0_0_1_n_n_wf : DotDims.WF S150000x256 S256x256 S150000x256 [1] [0] [0] [1] [] []
  scatter_S50000x256_S150000x1_S150000x256_1_0_0_1_wf : ScatterDims.WF S50000x256 S150000x1 S150000x256 [1] [0] [0] 1
  scatter_S50000x1_S150000x1_S150000x1_1_0_0_1_wf : ScatterDims.WF S50000x1 S150000x1 S150000x1 [1] [0] [0] 1
  gather_S50000x256_S150000x1_S150000x256_1_0_n_n_0_1_1256_wf : GatherDims.WF S50000x256 S150000x1 S150000x256 [1] [0] [] [0] [] 1 ![1, 256]
  dot_S150000x768_S768x256_S150000x256_1_0_0_1_n_n_wf : DotDims.WF S150000x768 S768x256 S150000x256 [1] [0] [0] [1] [] []

variable [Facts₀]

def dot_S150000x256_S256x256_S150000x256_1_0_0_1_n_n : DotDims S150000x256 S256x256 S150000x256 where
  lhsContracting := [1]
  rhsContracting := [0]
  lhsNonContracting := [0]
  rhsNonContracting := [1]
  lhsBatch := []
  rhsBatch := []
  wf := dot_S150000x256_S256x256_S150000x256_1_0_0_1_n_n_wf
def scatter_S50000x256_S150000x1_S150000x256_1_0_0_1 : ScatterDims S50000x256 S150000x1 S150000x256 where
  updateWindowDims := [1]
  insertedWindowDims := [0]
  scatterDimsToOperandDims := [0]
  indexVectorDim := 1
  wf := scatter_S50000x256_S150000x1_S150000x256_1_0_0_1_wf
def scatter_S50000x1_S150000x1_S150000x1_1_0_0_1 : ScatterDims S50000x1 S150000x1 S150000x1 where
  updateWindowDims := [1]
  insertedWindowDims := [0]
  scatterDimsToOperandDims := [0]
  indexVectorDim := 1
  wf := scatter_S50000x1_S150000x1_S150000x1_1_0_0_1_wf
def gather_S50000x256_S150000x1_S150000x256_1_0_n_n_0_1_1256 : GatherDims S50000x256 S150000x1 S150000x256 where
  offsetDims := [1]
  collapsedSliceDims := [0]
  operandBatchingDims := []
  startIndicesBatchingDims := []
  startIndexMap := [0]
  indexVectorDim := 1
  sliceSizes := ![1, 256]
  wf := gather_S50000x256_S150000x1_S150000x256_1_0_n_n_0_1_1256_wf
def dot_S150000x768_S768x256_S150000x256_1_0_0_1_n_n : DotDims S150000x768 S768x256 S150000x256 where
  lhsContracting := [1]
  rhsContracting := [0]
  lhsNonContracting := [0]
  rhsNonContracting := [1]
  lhsBatch := []
  rhsBatch := []
  wf := dot_S150000x768_S768x256_S150000x256_1_0_0_1_n_n_wf

class Facts : Prop extends Facts₀ where

variable [Facts]
-- ==== Proof.KernelRun.lean ====
/-
  The idealized kernel program's run with its two results named.

  @main is four kernel regions among four stretches of host operations.  The buffer contents at the eight segment
  boundaries are a fold from the launch memory (`Gen.W0` … `Gen.W8`): a host stretch applies its operations, a region
  replaces its windows' arrays by what the pipeline's write-backs leave and keeps every other buffer.  Every weakly
  fair execution terminates with every unscoped buffer at the last boundary's contents `Gen.W8`; read at the two
  result buffers and at the fourteen arguments this is the statement below.
-/
import proofs.«136880_j57131654971883_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the argument arrays as launched. -/
theorem run_W8 : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_v67) = W8 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       h c _ (mem_uc main_v67 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Run

end
-- ==== Proof.Spec.lean ====
/-
  The functions both programs compute, as whole-array terms over the reference's shapes and dimension records.

  One edge type's message is `msg e W b = leaky (e · W + b)` on [150000, 256]: the matrix product contracts the
  256 input features, the bias row is added to every edge, and `leaky x` keeps `x` where `x ≥ 0` and takes
  `c · x` elsewhere, `c` the float `0x3C23D70A`.  The mean over incoming edges is `rel μ dst`: the rows of `μ`
  summed into the node `dst` names, divided by `max (count, 1)`.  An index array is normalised by `nidx`
  (a negative index counts from the end, 50000 added).  The update is `upd e rs rd We be = [e | rs | rd] · We + be`,
  the three [150000, 256] operands side by side as one [150000, 768] matrix against the [768, 256] weights.
  `out0` and `out1` compose them as the model does for its two edge types.
-/
import proofs.«136880_j57131654971883_2_alg».proof.ReferenceIdeal
import Idealize.ShloMosaic.PureOps.Ideal

noncomputable section

namespace Cert.Spec

open Idealize.ShloMosaic Cert.ReferenceIdeal Cert.ReferenceIdeal.Facts₀

variable {F : FTy → Type} [FloatOps F] [Cert.ReferenceIdeal.Facts]

/-- `leaky x`: `x` where `x ≥ 0`, `c · x` elsewhere. -/
def leaky (x : FVec F S150000x256 .f32) : FVec F S150000x256 .f32 :=
  select (cmpf .oge x (broadcastInDim S150000x256 ![] bcast_S_S150000x256 (constant (F := F) S_ .f32 0x00000000#32))) x
    (mulf (broadcastInDim S150000x256 ![] bcast_S_S150000x256 (constant (F := F) S_ .f32 0x3C23D70A#32)) x)

/-- The affine map `e · W + b` on [150000, 256]. -/
def lin (e : FVec F S150000x256 .f32) (W : FVec F S256x256 .f32) (b : FVec F S256 .f32) : FVec F S150000x256 .f32 :=
  addf (Host.dotGeneral dot_S150000x256_S256x256_S150000x256_1_0_0_1_n_n none e W)
    (broadcastInDim S150000x256 ![0, 1] bcast_S1x256_S150000x256_0_1 (broadcastInDim S1x256 ![1] bcast_S256_S1x256_1 b))

/-- One edge type's messages. -/
def msg (e : FVec F S150000x256 .f32) (W : FVec F S256x256 .f32) (b : FVec F S256 .f32) : FVec F S150000x256 .f32 :=
  leaky (lin e W b)

/-- The mean of the messages arriving at each node (nodes nobody sends to get the sum `0` over the count `1`). -/
def rel (μ : FVec F S150000x256 .f32) (dst : IVec S150000 32) : FVec F S50000x256 .f32 :=
  Host.divf
    (Host.scatterAdd scatter_S50000x256_S150000x1_S150000x256_1_0_0_1
      (broadcastInDim S50000x256 ![] bcast_S_S50000x256 (constant (F := F) S_ .f32 0x00000000#32))
      (broadcastInDim S150000x1 ![0] bcast_S150000_S150000x1_0 dst) μ)
    (broadcastInDim S50000x256 ![0, 1] bcast_S50000x1_S50000x256_0_1
      (maximumf
        (Host.scatterAdd scatter_S50000x1_S150000x1_S150000x1_1_0_0_1
          (broadcastInDim S50000x1 ![] bcast_S_S50000x1 (constant (F := F) S_ .f32 0x00000000#32))
          (broadcastInDim S150000x1 ![0] bcast_S150000_S150000x1_0 dst)
          (broadcastInDim S150000x1 ![] bcast_S_S150000x1 (constant (F := F) S_ .f32 0x3F800000#32)))
        (broadcastInDim S50000x1 ![] bcast_S_S50000x1 (constant (F := F) S_ .f32 0x3F800000#32))))

/-- An index array normalised (a negative index counts from the end) and given its unit axis. -/
def nidx (s : IVec S150000 32) : IVec S150000x1 32 :=
  broadcastInDim S150000x1 ![0] bcast_S150000_S150000x1_0
    (select (cmpi .slt s (broadcastInDim S150000 ![] bcast_S_S150000 (constantI S_ 32 0#32)))
      (addi s (broadcastInDim S150000 ![] bcast_S_S150000 (constantI S_ 32 50000#32))) s)

/-- The rows of `ρ` the index array names. -/
def rows (ρ : FVec F S50000x256 .f32) (s : IVec S150000 32) : FVec F S150000x256 .f32 :=
  Host.gather gather_S50000x256_S150000x1_S150000x256_1_0_n_n_0_1_1256 ρ (nidx s)

/-- The edge update `[e | rs | rd] · We + be`. -/
def upd (e rs rd : FVec F S150000x256 .f32) (We : FVec F S768x256 .f32) (be : FVec F S256 .f32) : FVec F S150000x256 .f32 :=
  addf
    (Host.dotGeneral dot_S150000x768_S768x256_S150000x256_1_0_0_1_n_n none
      (concatenate S150000x768 1 [⟨S150000x256, e⟩, ⟨S150000x256, rs⟩, ⟨S150000x256, rd⟩]
        concatenates_S150000x256_S150000x256_S150000x256_S150000x768_d1) We)
    (broadcastInDim S150000x256 ![0, 1] bcast_S1x256_S150000x256_0_1 (broadcastInDim S1x256 ![1] bcast_S256_S1x256_1 be))

/-- The first result: edge type 0's update, from the means of both edge types' messages. -/
def out0 (e0 e1 : FVec F S150000x256 .f32) (src0 dst0 dst1 : IVec S150000 32)
    (W0 : FVec F S256x256 .f32) (b0 : FVec F S256 .f32) (W1 : FVec F S256x256 .f32) (b1 : FVec F S256 .f32)
    (We0 : FVec F S768x256 .f32) (be0 : FVec F S256 .f32) : FVec F S150000x256 .f32 :=
  upd e0 (rows (rel (msg e0 W0 b0) dst0) src0) (rows (rel (msg e1 W1 b1) dst1) dst0) We0 be0

/-- The second result: edge type 1's update. -/
def out1 (e0 e1 : FVec F S150000x256 .f32) (dst0 src1 dst1 : IVec S150000 32)
    (W0 : FVec F S256x256 .f32) (b0 : FVec F S256 .f32) (W1 : FVec F S256x256 .f32) (b1 : FVec F S256 .f32)
    (We1 : FVec F S768x256 .f32) (be1 : FVec F S256 .f32) : FVec F S150000x256 .f32 :=
  upd e1 (rows (rel (msg e0 W0 b0) dst0) src1) (rows (rel (msg e1 W1 b1) dst1) dst1) We1 be1

end Cert.Spec

end
-- ==== Proof.HostOps.lean ====
/-
  The host side of the idealized kernel program: what each stretch of host operations leaves in the buffers the regions
  read, and each argument buffer traced back through the segment boundaries to the launch memory.

  Between the two message regions and the two update regions the program computes, for each edge type, the mean of the
  messages at each node (`Cert.Spec.rel`) and gathers its rows at the four index arrays (`Cert.Spec.rows`); the
  changes of float format around them are the identity on extended reals.  Before each update region it cuts the
  [768, 256] weights into three [256, 256] blocks and gives the bias its unit axis.  No host operation and no region
  writes an argument buffer, so at every boundary an argument holds its launch contents.
-/
import proofs.«136880_j57131654971883_2_alg».proof.Proof.Gen.KernelIdeal.Frame
import proofs.«136880_j57131654971883_2_alg».proof.Proof.Gen.ReferenceIdeal
import proofs.«136880_j57131654971883_2_alg».proof.Proof.Spec
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-- A buffer that no operation of a stretch writes keeps its contents over the stretch. -/
macro "host_step" : tactic =>
  `(tactic| (refine StableHlo.after_of_forall_not_mem _ _ (List.forall_iff_forall_mem.mp ?_)
             simp only [hostOps0, hostOps1, hostOps2, hostOps3, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## The stretches, read at the buffers the regions take -/

section Stretches

variable (W : Valuation τ sig (Elt Ideal))

/-- The gathered mean rows: edge type 0's means at `src0`. -/
theorem ops2_v36 : after (hostOps2 (F := Ideal)) W (Proc.devRef .tc main_v36)
    = Cert.Spec.rows (F := Ideal) (Cert.Spec.rel (F := Ideal) (W (Proc.devRef .tc main_v1)) (W (Proc.devRef .tc main_arg3))) (W (Proc.devRef .tc main_arg2)) := by
  after_results_simp
  rfl

/-- Edge type 1's means at `dst0`. -/
theorem ops2_v43 : after (hostOps2 (F := Ideal)) W (Proc.devRef .tc main_v43)
    = Cert.Spec.rows (F := Ideal) (Cert.Spec.rel (F := Ideal) (W (Proc.devRef .tc main_v3)) (W (Proc.devRef .tc main_arg5))) (W (Proc.devRef .tc main_arg3)) := by
  after_results_simp
  rfl

/-- Edge type 0's means at `src1`. -/
theorem ops2_v50 : after (hostOps2 (F := Ideal)) W (Proc.devRef .tc main_v50)
    = Cert.Spec.rows (F := Ideal) (Cert.Spec.rel (F := Ideal) (W (Proc.devRef .tc main_v1)) (W (Proc.devRef .tc main_arg3))) (W (Proc.devRef .tc main_arg4)) := by
  after_results_simp
  rfl

/-- Edge type 1's means at `dst1`. -/
theorem ops2_v57 : after (hostOps2 (F := Ideal)) W (Proc.devRef .tc main_v57)
    = Cert.Spec.rows (F := Ideal) (Cert.Spec.rel (F := Ideal) (W (Proc.devRef .tc main_v3)) (W (Proc.devRef .tc main_arg5))) (W (Proc.devRef .tc main_arg5)) := by
  after_results_simp
  rfl

/-- The three [256, 256] blocks of edge type 0's update weights, and its bias with a unit axis. -/
theorem ops2_v58 : after (hostOps2 (F := Ideal)) W (Proc.devRef .tc main_v58)
    = extractStridedSlice S256x256 ![0, 0] (W (Proc.devRef .tc main_arg10)) Facts₀.slices_S768x256_S256x256_0_0 := by
  after_results_simp <;> rfl
theorem ops2_v59 : after (hostOps2 (F := Ideal)) W (Proc.devRef .tc main_v59)
    = extractStridedSlice S256x256 ![256, 0] (W (Proc.devRef .tc main_arg10)) Facts₀.slices_S768x256_S256x256_256_0 := by
  after_results_simp <;> rfl
theorem ops2_v60 : after (hostOps2 (F := Ideal)) W (Proc.devRef .tc main_v60)
    = extractStridedSlice S256x256 ![512, 0] (W (Proc.devRef .tc main_arg10)) Facts₀.slices_S768x256_S256x256_512_0 := by
  after_results_simp <;> rfl
theorem ops2_v61 : after (hostOps2 (F := Ideal)) W (Proc.devRef .tc main_v61)
    = shapeCast S1x256 (W (Proc.devRef .tc main_arg11)) Facts₀.shapeCasts_S256_S1x256 := by
  after_results_simp <;> rfl
/-- The long stretch writes no argument. -/
theorem ops2_arg0 : after (hostOps2 (F := Ideal)) W (Proc.devRef .tc main_arg0) = W (Proc.devRef .tc main_arg0) := by host_step
theorem ops2_arg1 : after (hostOps2 (F := Ideal)) W (Proc.devRef .tc main_arg1) = W (Proc.devRef .tc main_arg1) := by host_step
theorem ops2_arg12 : after (hostOps2 (F := Ideal)) W (Proc.devRef .tc main_arg12) = W (Proc.devRef .tc main_arg12) := by host_step
theorem ops2_arg13 : after (hostOps2 (F := Ideal)) W (Proc.devRef .tc main_arg13) = W (Proc.devRef .tc main_arg13) := by host_step

/-- The stretch before the last region: edge type 1's weight blocks and bias; everything else it leaves. -/
theorem ops3_v63 : after (hostOps3 (F := Ideal)) W (Proc.devRef .tc main_v63)
    = extractStridedSlice S256x256 ![0, 0] (W (Proc.devRef .tc main_arg12)) Facts₀.slices_S768x256_S256x256_0_0 := by
  after_results <;> rfl
theorem ops3_v64 : after (hostOps3 (F := Ideal)) W (Proc.devRef .tc main_v64)
    = extractStridedSlice S256x256 ![256, 0] (W (Proc.devRef .tc main_arg12)) Facts₀.slices_S768x256_S256x256_256_0 := by
  after_results <;> rfl
theorem ops3_v65 : after (hostOps3 (F := Ideal)) W (Proc.devRef .tc main_v65)
    = extractStridedSlice S256x256 ![512, 0] (W (Proc.devRef .tc main_arg12)) Facts₀.slices_S768x256_S256x256_512_0 := by
  after_results <;> rfl
theorem ops3_v66 : after (hostOps3 (F := Ideal)) W (Proc.devRef .tc main_v66)
    = shapeCast S1x256 (W (Proc.devRef .tc main_arg13)) Facts₀.shapeCasts_S256_S1x256 := by
  after_results <;> rfl
theorem ops3_arg1 : after (hostOps3 (F := Ideal)) W (Proc.devRef .tc main_arg1) = W (Proc.devRef .tc main_arg1) := by host_step
theorem ops3_v50 : after (hostOps3 (F := Ideal)) W (Proc.devRef .tc main_v50) = W (Proc.devRef .tc main_v50) := by host_step
theorem ops3_v57 : after (hostOps3 (F := Ideal)) W (Proc.devRef .tc main_v57) = W (Proc.devRef .tc main_v57) := by host_step

/-- The one-operation stretches before the message regions: the bias with a unit axis. -/
theorem ops0_v0 : after (hostOps0 (F := Ideal)) W (Proc.devRef .tc main_v0)
    = shapeCast S1x256 (W (Proc.devRef .tc main_arg7)) Facts₀.shapeCasts_S256_S1x256 := by
  after_results <;> rfl
theorem ops1_v2 : after (hostOps1 (F := Ideal)) W (Proc.devRef .tc main_v2)
    = shapeCast S1x256 (W (Proc.devRef .tc main_arg9)) Facts₀.shapeCasts_S256_S1x256 := by
  after_results <;> rfl

end Stretches

end Cert.KernelIdeal.Host

end
-- ==== Proof.HostWalk.lean ====
/-
  The buffer contents at the segment boundaries of the idealized kernel program, traced back.

  No host operation and no region writes an argument buffer (a region reads one through an input window, whose array it
  leaves as found), so at every boundary an argument holds its launch contents.  A region's result buffer holds, from
  the region's exit on, what the pipeline's write-backs left, until something writes it again — and nothing does.
-/
import proofs.«136880_j57131654971883_2_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a stretch writes keeps its contents over the stretch. -/
macro "host_step" : tactic =>
  `(tactic| (refine StableHlo.after_of_forall_not_mem _ _ (List.forall_iff_forall_mem.mp ?_)
             simp only [hostOps0, hostOps1, hostOps2, hostOps3, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## The arguments at the boundaries where a region or a stretch reads them -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_step
    _ = m ((c : Thread nD τ).loc main_arg0) := rfl

theorem W1_main_arg6 (c : Dev nD) : W1 m ρ c (Proc.devRef .tc main_arg6) = m ((c : Thread nD τ).loc main_arg6) :=
  calc W1 m ρ c (Proc.devRef .tc main_arg6)
    _ = W0 m ρ c (Proc.devRef .tc main_arg6) := by host_step
    _ = m ((c : Thread nD τ).loc main_arg6) := rfl

theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by host_step
    _ = m ((c : Thread nD τ).loc main_arg9) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by host_step
    _ = W1 m ρ c (Proc.devRef .tc main_arg1) := W2_of_ne m ρ c main_arg1 (by decide)
    _ = W0 m ρ c (Proc.devRef .tc main_arg1) := by host_step
    _ = m ((c : Thread nD τ).loc main_arg1) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by host_step
    _ = W1 m ρ c (Proc.devRef .tc main_arg8) := W2_of_ne m ρ c main_arg8 (by decide)
    _ = W0 m ρ c (Proc.devRef .tc main_arg8) := by host_step
    _ = m ((c : Thread nD τ).loc main_arg8) := rfl

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by host_step
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by host_step
    _ = m ((c : Thread nD τ).loc main_arg0) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by host_step
    _ = W1 m ρ c (Proc.devRef .tc main_arg2) := W2_of_ne m ρ c main_arg2 (by decide)
    _ = W0 m ρ c (Proc.devRef .tc main_arg2) := by host_step
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_step
    _ = W1 m ρ c (Proc.devRef .tc main_arg3) := W2_of_ne m ρ c main_arg3 (by decide)
    _ = W0 m ρ c (Proc.devRef .tc main_arg3) := by host_step
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_step
    _ = W1 m ρ c (Proc.devRef .tc main_arg4) := W2_of_ne m ρ c main_arg4 (by decide)
    _ = W0 m ρ c (Proc.devRef .tc main_arg4) := by host_step
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_step
    _ = W1 m ρ c (Proc.devRef .tc main_arg5) := W2_of_ne m ρ c main_arg5 (by decide)
    _ = W0 m ρ c (Proc.devRef .tc main_arg5) := by host_step
    _ = m ((c : Thread nD τ).loc main_arg5) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by host_step
    _ = W1 m ρ c (Proc.devRef .tc main_arg10) := W2_of_ne m ρ c main_arg10 (by decide)
    _ = W0 m ρ c (Proc.devRef .tc main_arg10) := by host_step
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by host_step
    _ = W1 m ρ c (Proc.devRef .tc main_arg11) := W2_of_ne m ρ c main_arg11 (by decide)
    _ = W0 m ρ c (Proc.devRef .tc main_arg11) := by host_step
    _ = m ((c : Thread nD τ).loc main_arg11) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := by host_step
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := by host_step
    _ = W1 m ρ c (Proc.devRef .tc main_arg1) := W2_of_ne m ρ c main_arg1 (by decide)
    _ = W0 m ρ c (Proc.devRef .tc main_arg1) := by host_step
    _ = m ((c : Thread nD τ).loc main_arg1) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by host_step
    _ = W3 m ρ c (Proc.devRef .tc main_arg12) := W4_of_ne m ρ c main_arg12 (by decide)
    _ = W2 m ρ c (Proc.devRef .tc main_arg12) := by host_step
    _ = W1 m ρ c (Proc.devRef .tc main_arg12) := W2_of_ne m ρ c main_arg12 (by decide)
    _ = W0 m ρ c (Proc.devRef .tc main_arg12) := by host_step
    _ = m ((c : Thread nD τ).loc main_arg12) := rfl

theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := by host_step
    _ = W3 m ρ c (Proc.devRef .tc main_arg13) := W4_of_ne m ρ c main_arg13 (by decide)
    _ = W2 m ρ c (Proc.devRef .tc main_arg13) := by host_step
    _ = W1 m ρ c (Proc.devRef .tc main_arg13) := W2_of_ne m ρ c main_arg13 (by decide)
    _ = W0 m ρ c (Proc.devRef .tc main_arg13) := by host_step
    _ = m ((c : Thread nD τ).loc main_arg13) := rfl

/-! ## The regions' results -/

/-- Region 0's result, as the long stretch finds it. -/
theorem W4_main_v1 (c : Dev nD) : W4 m ρ c (Proc.devRef .tc main_v1) = (dat0 (V1 m ρ) c).arrAt 3 cfg0.N :=
  calc W4 m ρ c (Proc.devRef .tc main_v1)
    _ = W3 m ρ c (Proc.devRef .tc main_v1) := W4_of_ne m ρ c main_v1 (by decide)
    _ = W2 m ρ c (Proc.devRef .tc main_v1) := by host_step
    _ = (dat0 (V1 m ρ) c).arrAt 3 cfg0.N := W2_arr m ρ c 3

/-- Region 1's result, as the long stretch finds it. -/
theorem W4_main_v3 (c : Dev nD) : W4 m ρ c (Proc.devRef .tc main_v3) = (dat1 (V3 m ρ) c).arrAt 3 cfg1.N :=
  W4_arr m ρ c 3

/-- The first result at the end: what region 2 left. -/
theorem W8_main_v62 (c : Dev nD) : W8 m ρ c (Proc.devRef .tc main_v62) = (dat2 (V5 m ρ) c).arrAt 7 cfg2.N :=
  calc W8 m ρ c (Proc.devRef .tc main_v62)
    _ = W7 m ρ c (Proc.devRef .tc main_v62) := W8_of_ne m ρ c main_v62 (by decide)
    _ = W6 m ρ c (Proc.devRef .tc main_v62) := by host_step
    _ = (dat2 (V5 m ρ) c).arrAt 7 cfg2.N := W6_arr m ρ c 7

/-- The second result at the end: what region 3 left. -/
theorem W8_main_v67 (c : Dev nD) : W8 m ρ c (Proc.devRef .tc main_v67) = (dat3 (V7 m ρ) c).arrAt 7 cfg3.N :=
  W8_arr m ρ c 7

/-- The rows gathered for edge type 1 pass region 2 untouched. -/
theorem W6_main_v50 (c : Dev nD) : W6 m ρ c (Proc.devRef .tc main_v50) = W5 m ρ c (Proc.devRef .tc main_v50) :=
  W6_of_ne m ρ c main_v50 (by decide)
theorem W6_main_v57 (c : Dev nD) : W6 m ρ c (Proc.devRef .tc main_v57) = W5 m ρ c (Proc.devRef .tc main_v57) :=
  W6_of_ne m ρ c main_v57 (by decide)

end Cert.KernelIdeal.Walk

end
-- ==== Proof.BlocksMsg.lean ====
/-
  Region 0 and region 1 (the two message kernels): the array each leaves, as one function of its three operand arrays.

  The grid has 30 points; point `t` reads rows `5000 t … 5000 t + 4999` of the [150000, 256] operand, the whole
  [256, 256] weights and the whole [1, 256] bias row, and writes back rows `5000 t … 5000 t + 4999` of the result.
  Entry `(p, j)` of the block the body leaves is `φ (∑ k, x0 (p, k) · x1 (k, j) + x2 (0, j))` of the blocks it loaded
  (the hypothesis `hpay`), so entry `(r, j)` of the array after the last write-back is
  `φ (∑ k, e (r, k) · W (k, j) + b2 (0, j))`: the blocks are restrictions of that one function, and every row lies in
  the block of the point `r / 5000`.
-/
import proofs.«136880_j57131654971883_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- One entry of a message array: `φ` of the row of `e` against the column of `W`, plus the bias row's entry. -/
def msgPt (φ : EReal → EReal) (e : FVec Ideal S150000x256 .f32) (W : FVec Ideal S256x256 .f32) (b2 : FVec Ideal S1x256 .f32)
    (r : Fin 150000) (j : Fin 256) : EReal :=
  φ ((∑ k : Fin 256, e (ix2 r k) * W (ix2 k j)) + b2 (ix2 0 j))

/-- The message array, entry by entry. -/
def msgK (φ : EReal → EReal) (e : FVec Ideal S150000x256 .f32) (W : FVec Ideal S256x256 .f32) (b2 : FVec Ideal S1x256 .f32) :
    FVec Ideal S150000x256 .bf16 :=
  fun i => msgPt φ e W b2 ⟨(i 0).val, idx2_lt0 i⟩ ⟨(i 1).val, idx2_lt1 i⟩

/-! ## Region 0 -/

section

variable (V : (c : Dev nD) → (b : Ref sig .tc) → Buf (Elt Ideal) ((c : Thread nD τ).loc b))
variable (φ : EReal → EReal)

/-- The printed index maps over the grid: the row operand and the result move with the point, the others stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point `t` is rows `5000 t …` of its array. -/
theorem iblk0_0_apply (c : Dev nD) (t : Fin cfg0.N) (p : Fin 5000) (k : Fin 256) (r : Fin 150000) (hr : r.val = 5000 * t.val + p.val) :
    (iblk0 V c 0 t : Vec Ideal S5000x256 .f32) (ix2 p k) = (V c main_arg0 : S150000x256.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 256 + 1 * k.val = k.val; rw [e1]; omega

/-- Window 1's block at every point is its whole array. -/
theorem iblk0_1_apply (c : Dev nD) (t : Fin cfg0.N) (k : Fin 256) (j : Fin 256) :
    (iblk0 V c 1 t : Vec Ideal S256x256 .f32) (ix2 k j) = (V c main_arg6 : S256x256.Idx → EReal) (ix2 k j) := by
  obtain ⟨-, -, e2, e3, -⟩ := idx_facts0 t
  unfold iblk0
  rw [View.read_apply]
  show V c main_arg6 _ = V c main_arg6 _
  congr 1
  funext a
  apply Fin.ext
  match a with
  | ⟨0, _⟩ => show win0_1.index t 0 * 256 + 1 * k.val = k.val; rw [e2]; omega
  | ⟨1, _⟩ => show win0_1.index t 1 * 256 + 1 * j.val = j.val; rw [e3]; omega

/-- Window 2's block at every point is its whole array. -/
theorem iblk0_2_apply (c : Dev nD) (t : Fin cfg0.N) (z : Fin 1) (j : Fin 256) :
    (iblk0 V c 2 t : Vec Ideal S1x256 .f32) (ix2 z j) = (V c main_v0 : S1x256.Idx → EReal) (ix2 z j) := by
  obtain ⟨-, -, -, -, e4, e5, -⟩ := idx_facts0 t
  unfold iblk0
  rw [View.read_apply]
  show V c main_v0 _ = V c main_v0 _
  congr 1
  funext a
  apply Fin.ext
  match a with
  | ⟨0, _⟩ => show win0_2.index t 0 * 1 + 1 * z.val = z.val; rw [e4]; omega
  | ⟨1, _⟩ => show win0_2.index t 1 * 256 + 1 * j.val = j.val; rw [e5]; omega

variable (hpay : ∀ (x0 : Vec Ideal S5000x256 .f32) (x1 : Vec Ideal S256x256 .f32) (x2 : Vec Ideal S1x256 .f32) (p : Fin 5000) (j : Fin 256),
    k0_pay1 (F := Ideal) x0 x1 x2 (ix2 p j) = φ ((∑ k : Fin 256, x0 (ix2 p k) * x1 (ix2 k j)) + x2 (ix2 0 j)))

include hpay in
/-- What point `t` writes back is block `t` of the message array of the operand arrays as the region finds them. -/
theorem flushed0_eq (c : Dev nD) (t : Fin cfg0.N) :
    (dat0 V c).flushed 3 t = ((cfg0.win 3).blk t).view.read (Elt Ideal) (msgK φ (V c main_arg0) (V c main_arg6) (V c main_v0)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x256) hz, View.ld_unit_zero (S := S1x256) hz]
  obtain ⟨-, -, -, -, -, -, e6, e7⟩ := idx_facts0 t
  funext y
  obtain ⟨p, j, rfl⟩ : ∃ (p : Fin 5000) (j : Fin 256), y = ix2 p j := ⟨y 0, y 1, eq_ix2 y⟩
  refine (hpay _ _ _ p j).trans ?_
  have hp : p.val < 5000 := p.isLt
  have ht : t.val < 30 := lt_of_lt_of_eq t.isLt (show cfg0.N = 30 from N_0)
  rw [View.read_apply]
  show φ _ = msgK φ (V c main_arg0) (V c main_arg6) (V c main_v0) (((View.whole main_v1).slice ((win0 3).rect t)).emb (ix2 p j))
  have h0 : ((((View.whole main_v1).slice ((win0 3).rect t)).emb (ix2 p j)) 0).val = 5000 * t.val + p.val := by
    show win0_3.index t 0 * 5000 + 1 * p.val = _
    rw [e6]; omega
  have h1 : ((((View.whole main_v1).slice ((win0 3).rect t)).emb (ix2 p j)) 1).val = j.val := by
    show win0_3.index t 1 * 256 + 1 * j.val = _
    rw [e7]; omega
  generalize ((View.whole main_v1).slice ((win0 3).rect t)).emb (ix2 p j) = i at h0 h1 ⊢
  unfold msgK msgPt
  have hj : (⟨(i 1).val, idx2_lt1 i⟩ : Fin 256) = j := Fin.ext h1
  rw [hj]
  refine congrArg φ (congrArg₂ (· + ·) (Finset.sum_congr rfl fun k _ => ?_) (iblk0_2_apply V c t 0 j))
  rw [iblk0_0_apply V c t p k ⟨(i 0).val, idx2_lt0 i⟩ h0, iblk0_1_apply V c t k j]

/-- An index of the result array is in point `t`'s block iff each coordinate is in the block's range on its axis. -/
theorem mem_blk0 (t : Fin cfg0.N) (i : S150000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v1).slice (win0_3.rect t)).set ↔ _
  rw [View.set_slice_whole, Rect.mem_set_unit]
  exact Iff.rfl

/-- Every row lies in the block of the point `row / 5000`. -/
theorem cover0 (i : S150000x256.Idx) : ∃ t : Fin cfg0.N, (cfg0.win 3).flush t = true ∧ i ∈ ((cfg0.win 3).blk t).view.set := by
  have hi0 : (i 0).val < 150000 := idx2_lt0 i
  have hi1 : (i 1).val < 256 := idx2_lt1 i
  have hN : cfg0.N = 30 := N_0
  obtain ⟨t, htv⟩ : ∃ t : Fin cfg0.N, t.val = (i 0).val / 5000 := ⟨⟨(i 0).val / 5000, by rw [hN]; omega⟩, rfl⟩
  obtain ⟨-, -, -, -, -, -, e6, e7⟩ := idx_facts0 t
  refine ⟨t, flush0_3 t, ?_⟩
  rw [mem_blk0]
  intro a
  match a with
  | ⟨0, _⟩ =>
    show win0_3.index t 0 * 5000 ≤ (i 0).val ∧ (i 0).val < win0_3.index t 0 * 5000 + 5000
    rw [e6, htv]; omega
  | ⟨1, _⟩ =>
    show win0_3.index t 1 * 256 ≤ (i 1).val ∧ (i 1).val < win0_3.index t 1 * 256 + 256
    rw [e7]; omega

include hpay in
/-- The result array after the last write-back is the message array of the operand arrays as the region finds them. -/
theorem final0 (c : Dev nD) : (dat0 V c).arrAt 3 cfg0.N = msgK φ (V c main_arg0) (V c main_arg6) (V c main_v0) :=
  (dat0 V c).arrAt_eq_of_cover 3 _ (fun t _ => flushed0_eq V φ hpay c t) cover0

end

/-! ## Region 1 -/

section

variable (V : (c : Dev nD) → (b : Ref sig .tc) → Buf (Elt Ideal) ((c : Thread nD τ).loc b))
variable (φ : EReal → EReal)

/-- The printed index maps over the grid: the row operand and the result move with the point, the others stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point `t` is rows `5000 t …` of its array. -/
theorem iblk1_0_apply (c : Dev nD) (t : Fin cfg1.N) (p : Fin 5000) (k : Fin 256) (r : Fin 150000) (hr : r.val = 5000 * t.val + p.val) :
    (iblk1 V c 0 t : Vec Ideal S5000x256 .f32) (ix2 p k) = (V c main_arg1 : S150000x256.Idx → EReal) (ix2 r k) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t 0 * 5000 + 1 * p.val = r.val; rw [e0, hr]; omega
  | ⟨1, _⟩ => show win1_0.index t 1 * 256 + 1 * k.val = k.val; rw [e1]; omega

/-- Window 1's block at every point is its whole array. -/
theorem iblk1_1_apply (c : Dev nD) (t : Fin cfg1.N) (k : Fin 256) (j : Fin 256) :
    (iblk1 V c 1 t : Vec Ideal S256x256 .f32) (ix2 k j) = (V c main_arg8 : S256x256.Idx → EReal) (ix2 k j) := by
  obtain ⟨-, -, e2, e3, -⟩ := idx_facts1 t
  unfold iblk1
  rw [View.read_apply]
  show V c main_arg8 _ = V c main_arg8 _
  congr 1
  funext a
  apply Fin.ext
  match a with
  | ⟨0, _⟩ => show win1_1.index t 0 * 256 + 1 * k.val = k.val; rw [e2]; omega
  | ⟨1, _⟩ => show win1_1.index t 1 * 256 + 1 * j.val = j.val; rw [e3]; omega

/-- Window 2's block at every point is its whole array. -/
theorem iblk1_2_apply (c : Dev nD) (t : Fin cfg1.N) (z : Fin 1) (j : Fin 256) :
    (iblk1 V c 2 t : Vec Ideal S1x256 .f32) (ix2 z j) = (V c main_v2 : S1x256.Idx → EReal) (ix2 z j) := by
  obtain ⟨-, -, -, -, e4, e5, -⟩ := idx_facts1 t
  unfold iblk1
  rw [View.read_apply]
  show V c main_v2 _ = V c main_v2 _
  congr 1
  funext a
  apply Fin.ext
  match a with
  | ⟨0, _⟩ => show win1_2.index t 0 * 1 + 1 * z.val = z.val; rw [e4]; omega
  | ⟨1, _⟩ => show win1_2.index t 1 * 256 + 1 * j.val = j.val; rw [e5]; omega

variable (hpay : ∀ (x0 : Vec Ideal S5000x256 .f32) (x1 : Vec Ideal S256x256 .f32) (x2 : Vec Ideal S1x256 .f32) (p : Fin 5000) (j : Fin 256),
    k1_pay1 (F := Ideal) x0 x1 x2 (ix2 p j) = φ ((∑ k : Fin 256, x0 (ix2 p k) * x1 (ix2 k j)) + x2 (ix2 0 j)))

include hpay in
/-- What point `t` writes back is block `t` of the message array of the operand arrays as the region finds them. -/
theorem flushed1_eq (c : Dev nD) (t : Fin cfg1.N) :
    (dat1 V c).flushed 3 t = ((cfg1.win 3).blk t).view.read (Elt Ideal) (msgK φ (V c main_arg1) (V c main_arg8) (V c main_v2)) := by
  show (cfg1.win 3).cut (grid1.coords t) ((dat1 V c).after 3 t) = _
  rw [after1_3]
  unfold out1_3
  rw [View.canon_unit_zero hz]
  simp only [View.ld_unit_zero (S := S5000x256) hz, View.ld_unit_zero (S := S256x256) hz, View.ld_unit_zero (S := S1x256) hz]
  obtain ⟨-, -, -, -, -, -, e6, e7⟩ := idx_facts1 t
  funext y
  obtain ⟨p, j, rfl⟩ : ∃ (p : Fin 5000) (j : Fin 256), y = ix2 p j := ⟨y 0, y 1, eq_ix2 y⟩
  refine (hpay _ _ _ p j).trans ?_
  have hp : p.val < 5000 := p.isLt
  have ht : t.val < 30 := lt_of_lt_of_eq t.isLt (show cfg1.N = 30 from N_1)
  rw [View.read_apply]
  show φ _ = msgK φ (V c main_arg1) (V c main_arg8) (V c main_v2) (((View.whole main_v3).slice ((win1 3).rect t)).emb (ix2 p j))
  have h0 : ((((View.whole main_v3).slice ((win1 3).rect t)).emb (ix2 p j)) 0).val = 5000 * t.val + p.val := by
    show win1_3.index t 0 * 5000 + 1 * p.val = _
    rw [e6]; omega
  have h1 : ((((View.whole main_v3).slice ((win1 3).rect t)).emb (ix2 p j)) 1).val = j.val := by
    show win1_3.index t 1 * 256 + 1 * j.val = _
    rw [e7]; omega
  generalize ((View.whole main_v3).slice ((win1 3).rect t)).emb (ix2 p j) = i at h0 h1 ⊢
  unfold msgK msgPt
  have hj : (⟨(i 1).val, idx2_lt1 i⟩ : Fin 256) = j := Fin.ext h1
  rw [hj]
  refine congrArg φ (congrArg₂ (· + ·) (Finset.sum_congr rfl fun k _ => ?_) (iblk1_2_apply V c t 0 j))
  rw [iblk1_0_apply V c t p k ⟨(i 0).val, idx2_lt0 i⟩ h0, iblk1_1_apply V c t k j]

/-- An index of the result array is in point `t`'s block iff each coordinate is in the block's range on its axis. -/
theorem mem_blk1 (t : Fin cfg1.N) (i : S150000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v3).slice (win1_3.rect t)).set ↔ _
  rw [View.set_slice_whole, Rect.mem_set_unit]
  exact Iff.rfl

/-- Every row lies in the block of the point `row / 5000`. -/
theorem cover1 (i : S150000x256.Idx) : ∃ t : Fin cfg1.N, (cfg1.win 3).flush t = true ∧ i ∈ ((cfg1.win 3).blk t).view.set := by
  have hi0 : (i 0).val < 150000 := idx2_lt0 i
  have hi1 : (i 1).val < 256 := idx2_lt1 i
  have hN : cfg1.N = 30 := N_1
  obtain ⟨t, htv⟩ : ∃ t : Fin cfg1.N, t.val = (i 0).val / 5000 := ⟨⟨(i 0).val / 5000, by rw [hN]; omega⟩, rfl⟩
  obtain ⟨-, -, -, -, -, -, e6, e7⟩ := idx_facts1 t
  refine ⟨t, flush1_3 t, ?_⟩
  rw [mem_blk1]
  intro a
  match a with
  | ⟨0, _⟩ =>
    show win1_3.index t 0 * 5000 ≤ (i 0).val ∧ (i 0).val < win1_3.index t 0 * 5000 + 5000
    rw [e6, htv]; omega
  | ⟨1, _⟩ =>
    show win1_3.index t 1 * 256 ≤ (i 1).val ∧ (i 1).val < win1_3.index t 1 * 256 + 256
    rw [e7]; omega

include hpay in
/-- The result array after the last write-back is the message array of the operand arrays as the region finds them. -/
theorem final1 (c : Dev nD) : (dat1 V c).arrAt 3 cfg1.N = msgK φ (V c main_arg1) (V c main_arg8) (V c main_v2) :=
  (dat1 V c).arrAt_eq_of_cover 3 _ (fun t _ => flushed1_eq V φ hpay c t) cover1

end

end Cert.KernelIdeal.Blocks

end
-- ==== Proof.BlocksUpd.lean ====
/-
  Region 2 and region 3 (the two edge-update kernels): the array each leaves, as one function of its seven operand arrays.

  The grid has 50 points; point `t` reads rows `3000 t … 3000 t + 2999` of the three [150000, 256] operands, the three
  whole [256, 256] weight blocks and the whole [1, 256] bias row, and writes back rows `3000 t … 3000 t + 2999` of the
  result.  Entry `(p, j)` of the block the body leaves is the three contractions added in order plus the bias row's
  entry (the hypothesis `hpay`), so entry `(r, j)` of the array after the last write-back is
  `((∑ k, e (r, k) · A (k, j) + ∑ k, rs (r, k) · B (k, j)) + ∑ k, rd (r, k) · C (k, j)) + b2 (0, j)`, and every row lies in
  the block of the point `r / 3000`.
-/
import proofs.«136880_j57131654971883_2_alg».proof.Proof.Gen.KernelIdeal.Frame
import Idealize.ShloMosaic.Lib.Pipeline.Value
import Idealize.ShloMosaic.Lib.ValueIdx

set_option maxRecDepth 16384

noncomputable section

namespace Cert.KernelIdeal.BlocksU

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- One entry of an update array: the three contractions added in order, plus the bias row's entry. -/
def updPt (e : FVec Ideal S150000x256 .f32) (rs rd : FVec Ideal S150000x256 .bf16) (A B C : FVec Ideal S256x256 .f32) (b2 : FVec Ideal S1x256 .f32)
    (r : Fin 150000) (j : Fin 256) : EReal :=
  ((((∑ k : Fin 256, (e (ix2 r k) : EReal) * (A (ix2 k j) : EReal)) + (∑ k : Fin 256, (rs (ix2 r k) : EReal) * (B (ix2 k j) : EReal)))
    + (∑ k : Fin 256, (rd (ix2 r k) : EReal) * (C (ix2 k j) : EReal))) + (b2 (ix2 0 j) : EReal))

/-- The update array, entry by entry. -/
def updK (e : FVec Ideal S150000x256 .f32) (rs rd : FVec Ideal S150000x256 .bf16) (A B C : FVec Ideal S256x256 .f32) (b2 : FVec Ideal S1x256 .f32) :
    FVec Ideal S150000x256 .f32 :=
  fun i => updPt e rs rd A B C b2 ⟨(i 0).val, idx2_lt0 i⟩ ⟨(i 1).val, idx2_lt1 i⟩

/-! ## Region 2 -/

section

variable (V : (c : Dev nD) → (b : Ref sig .tc) → Buf (Elt Ideal) ((c : Thread nD τ).loc b))

/-- The printed index maps over the grid: the three row operands and the result move with the point, the others stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Window 0's block at point `t` is rows `3000 t …` of its array. -/
theorem iblk2_0_apply (c : Dev nD) (t : Fin cfg2.N) (p : Fin 3000) (k : Fin 256) (r : Fin 150000) (hr : r.val = 3000 * t.val + p.val) :
    (iblk2 V c 0 t : Vec Ideal S3000x256 .f32) (ix2 p k) = (V c main_arg0 : S150000x256.Idx → EReal) (ix2 r k) := by
  obtain ⟨f00, f01, f10, f11, f20, f21, f30, f31, f40, f41, f50, f51, f60, f61, f70, f71⟩ := idx_facts2 t
  unfold iblk2
  rw [View.read_apply]
  show V c main_arg0 _ = V c main_arg0 _
  congr 1
  funext a
  apply Fin.ext
  match a with
  | ⟨0, _⟩ => show win2_0.index t 0 * 3000 + 1 * p.val = r.val; rw [f00, hr]; omega
  | ⟨1, _⟩ => show win2_0.index t 1 * 256 + 1 * k.val = k.val; rw [f01]; omega

/-- Window 1's block at point `t` is rows `3000 t …` of its array. -/
theorem iblk2_1_apply (c : Dev nD) (t : Fin cfg2.N) (p : Fin 3000) (k : Fin 256) (r : Fin 150000) (hr : r.val = 3000 * t.val + p.val) :
    (iblk2 V c 1 t : Vec Ideal S3000x256 .bf16) (ix2 p k) = (V c main_v36 : S150000x256.Idx → EReal) (ix2 r k) := by
  obtain ⟨f00, f01, f10, f11, f20, f21, f30, f31, f40, f41, f50, f51, f60, f61, f70, f71⟩ := idx_facts2 t
  unfold iblk2
  rw [View.read_apply]
  show V c main_v36 _ = V c main_v36 _
  congr 1
  funext a
  apply Fin.ext
  match a with
  | ⟨0, _⟩ => show win2_1.index t 0 * 3000 + 1 * p.val = r.val; rw [f10, hr]; omega
  | ⟨1, _⟩ => show win2_1.index t 1 * 256 + 1 * k.val = k.val; rw [f11]; omega

/-- Window 2's block at point `t` is rows `3000 t …` of its array. -/
theorem iblk2_2_apply (c : Dev nD) (t : Fin cfg2.N) (p : Fin 3000) (k : Fin 256) (r : Fin 150000) (hr : r.val = 3000 * t.val + p.val) :
    (iblk2 V c 2 t : Vec Ideal S3000x256 .bf16) (ix2 p k) = (V c main_v43 : S150000x256.Idx → EReal) (ix2 r k) := by
  obtain ⟨f00, f01, f10, f11, f20, f21, f30, f31, f40, f41, f50, f51, f60, f61, f70, f71⟩ := idx_facts2 t
  unfold iblk2
  rw [View.read_apply]
  show V c main_v43 _ = V c main_v43 _
  congr 1
  funext a
  apply Fin.ext
  match a with
  | ⟨0, _⟩ => show win2_2.index t 0 * 3000 + 1 * p.val = r.val; rw [f20, hr]; omega
  | ⟨1, _⟩ => show win2_2.index t 1 * 256 + 1 * k.val = k.val; rw [f21]; omega

/-- Window 3's block at every point is its whole array. -/
theorem iblk2_3_apply (c : Dev nD) (t : Fin cfg2.N) (k : Fin 256) (j : Fin 256) :
    (iblk2 V c 3 t : Vec Ideal S256x256 .f32) (ix2 k j) = (V c main_v58 : S256x256.Idx → EReal) (ix2 k j) := by
  obtain ⟨f00, f01, f10, f11, f20, f21, f30, f31, f40, f41, f50, f51, f60, f61, f70, f71⟩ := idx_facts2 t
  unfold iblk2
  rw [View.read_apply]
  show V c main_v58 _ = V c main_v58 _
  congr 1
  funext a
  apply Fin.ext
  match a with
  | ⟨0, _⟩ => show win2_3.index t 0 * 256 + 1 * k.val = k.val; rw [f30]; omega
  | ⟨1, _⟩ => show win2_3.index t 1 * 256 + 1 * j.val = j.val; rw [f31]; omega

/-- Window 4's block at every point is its whole array. -/
theorem iblk2_4_apply (c : Dev nD) (t : Fin cfg2.N) (k : Fin 256) (j : Fin 256) :
    (iblk2 V c 4 t : Vec Ideal S256x256 .f32) (ix2 k j) = (V c main_v59 : S256x256.Idx → EReal) (ix2 k j) := by
  obtain ⟨f00, f01, f10, f11, f20, f21, f30, f31, f40, f41, f50, f51, f60, f61, f70, f71⟩ := idx_facts2 t
  unfold iblk2
  rw [View.read_apply]
  show V c main_v59 _ = V c main_v59 _
  congr 1
  funext a
  apply Fin.ext
  match a with
  | ⟨0, _⟩ => show win2_4.index t 0 * 256 + 1 * k.val = k.val; rw [f40]; omega
  | ⟨1, _⟩ => show win2_4.index t 1 * 256 + 1 * j.val = j.val; rw [f41]; omega

/-- Window 5's block at every point is its whole array. -/
theorem iblk2_5_apply (c : Dev nD) (t : Fin cfg2.N) (k : Fin 256) (j : Fin 256) :
    (iblk2 V c 5 t : Vec Ideal S256x256 .f32) (ix2 k j) = (V c main_v60 : S256x256.Idx → EReal) (ix2 k j) := by
  obtain ⟨f00, f01, f10, f11, f20, f21, f30, f31, f40, f41, f50, f51, f60, f61, f70, f71⟩ := idx_facts2 t
  unfold iblk2
  rw [View.read_apply]
  show V c main_v60 _ = V c main_v60 _
  congr 1
  funext a
  apply Fin.ext
  match a with
  | ⟨0, _⟩ => show win2_5.index t 0 * 256 + 1 * k.val = k.val; rw [f50]; omega
  | ⟨1, _⟩ => show win2_5.index t 1 * 256 + 1 * j.val = j.val; rw [f51]; omega

/-- Window 6's block at every point is its whole array. -/
theorem iblk2_6_apply (c : Dev nD) (t : Fin cfg2.N) (z : Fin 1) (j : Fin 256) :
    (iblk2 V c 6 t : Vec Ideal S1x256 .f32) (ix2 z j) = (V c main_v61 : S1x256.Idx → EReal) (ix2 z j) := by
  obtain ⟨f00, f01, f10, f11, f20, f21, f30, f31, f40, f41, f50, f51, f60, f61, f70, f71⟩ := idx_facts2 t
  unfold iblk2
  rw [View.read_apply]
  show V c main_v61 _ = V c main_v61 _
  congr 1
  funext a
  apply Fin.ext
  match a with
  | ⟨0, _⟩ => show win2_6.index t 0 * 1 + 1 * z.val = z.val; rw [f60]; omega
  | ⟨1, _⟩ => show win2_6.index t 1 * 256 + 1 * j.val = j.val; rw [f61]; omega

variable (hpay : ∀ (x0 : Vec Ideal S3000x256 .f32) (x1 x2 : Vec Ideal S3000x256 .bf16) (x3 x4 x5 : Vec Ideal S256x256 .f32) (x6 : Vec Ideal S1x256 .f32)
      (p : Fin 3000) (j : Fin 256),
    k2_pay1 (F := Ideal) x0 x1 x2 x3 x4 x5 x6 (ix2 p j)
      = ((((∑ k : Fin 256, (x0 (ix2 p k) : EReal) * (x3 (ix2 k j) : EReal)) + (∑ k : Fin 256, (x1 (ix2 p k) : EReal) * (x4 (ix2 k j) : EReal)))
          + (∑ k : Fin 256, (x2 (ix2 p k) : EReal) * (x5 (ix2 k j) : EReal))) + (x6 (ix2 0 j) : EReal)))

include hpay in
/-- What point `t` writes back is block `t` of the update array of the operand arrays as the region finds them. -/
theorem flushed2_eq (c : Dev nD) (t : Fin cfg2.N) :
    (dat2 V c).flushed 7 t = ((cfg2.win 7).blk t).view.read (Elt Ideal)
      (updK (V c main_arg0) (V c main_v36) (V c main_v43) (V c main_v58) (V c main_v59) (V c main_v60) (V c main_v61)) := by
  show (cfg2.win 7).cut (grid2.coords t) ((dat2 V c).after 7 t) = _
  rw [after2_7]
  unfold out2_7
  rw [View.canon_unit_zero hz]
  simp only [View.ld_unit_zero (S := S3000x256) hz, View.ld_unit_zero (S := S256x256) hz, View.ld_unit_zero (S := S1x256) hz]
  obtain ⟨f00, f01, f10, f11, f20, f21, f30, f31, f40, f41, f50, f51, f60, f61, f70, f71⟩ := idx_facts2 t
  funext y
  obtain ⟨p, j, rfl⟩ : ∃ (p : Fin 3000) (j : Fin 256), y = ix2 p j := ⟨y 0, y 1, eq_ix2 y⟩
  refine (hpay _ _ _ _ _ _ _ p j).trans ?_
  have hp : p.val < 3000 := p.isLt
  have ht : t.val < 50 := lt_of_lt_of_eq t.isLt (show cfg2.N = 50 from N_2)
  rw [View.read_apply]
  show _ = updK (V c main_arg0) (V c main_v36) (V c main_v43) (V c main_v58) (V c main_v59) (V c main_v60) (V c main_v61)
    (((View.whole main_v62).slice ((win2 7).rect t)).emb (ix2 p j))
  have h0 : ((((View.whole main_v62).slice ((win2 7).rect t)).emb (ix2 p j)) 0).val = 3000 * t.val + p.val := by
    show win2_7.index t 0 * 3000 + 1 * p.val = _
    rw [f70]; omega
  have h1 : ((((View.whole main_v62).slice ((win2 7).rect t)).emb (ix2 p j)) 1).val = j.val := by
    show win2_7.index t 1 * 256 + 1 * j.val = _
    rw [f71]; omega
  generalize ((View.whole main_v62).slice ((win2 7).rect t)).emb (ix2 p j) = i at h0 h1 ⊢
  unfold updK updPt
  have hj : (⟨(i 1).val, idx2_lt1 i⟩ : Fin 256) = j := Fin.ext h1
  rw [hj]
  refine congrArg₂ (· + ·) (congrArg₂ (· + ·) (congrArg₂ (· + ·)
    (Finset.sum_congr rfl fun k _ => ?_) (Finset.sum_congr rfl fun k _ => ?_)) (Finset.sum_congr rfl fun k _ => ?_)) (iblk2_6_apply V c t 0 j)
  · rw [iblk2_0_apply V c t p k ⟨(i 0).val, idx2_lt0 i⟩ h0, iblk2_3_apply V c t k j]
  · rw [iblk2_1_apply V c t p k ⟨(i 0).val, idx2_lt0 i⟩ h0, iblk2_4_apply V c t k j]
  · rw [iblk2_2_apply V c t p k ⟨(i 0).val, idx2_lt0 i⟩ h0, iblk2_5_apply V c t k j]

/-- An index of the result array is in point `t`'s block iff each coordinate is in the block's range on its axis. -/
theorem mem_blk2 (t : Fin cfg2.N) (i : S150000x256.Idx) :
    i ∈ ((cfg2.win 7).blk t).view.set ↔ ∀ a : Fin 2, win2_7.index t a * S3000x256.size a ≤ (i a).val ∧ (i a).val < win2_7.index t a * S3000x256.size a + S3000x256.size a := by
  show i ∈ ((View.whole main_v62).slice (win2_7.rect t)).set ↔ _
  rw [View.set_slice_whole, Rect.mem_set_unit]
  exact Iff.rfl

/-- Every row lies in the block of the point `row / 3000`. -/
theorem cover2 (i : S150000x256.Idx) : ∃ t : Fin cfg2.N, (cfg2.win 7).flush t = true ∧ i ∈ ((cfg2.win 7).blk t).view.set := by
  have hi0 : (i 0).val < 150000 := idx2_lt0 i
  have hi1 : (i 1).val < 256 := idx2_lt1 i
  have hN : cfg2.N = 50 := N_2
  obtain ⟨t, htv⟩ : ∃ t : Fin cfg2.N, t.val = (i 0).val / 3000 := ⟨⟨(i 0).val / 3000, by rw [hN]; omega⟩, rfl⟩
  obtain ⟨f00, f01, f10, f11, f20, f21, f30, f31, f40, f41, f50, f51, f60, f61, f70, f71⟩ := idx_facts2 t
  refine ⟨t, flush2_7 t, ?_⟩
  rw [mem_blk2]
  intro a
  match a with
  | ⟨0, _⟩ =>
    show win2_7.index t 0 * 3000 ≤ (i 0).val ∧ (i 0).val < win2_7.index t 0 * 3000 + 3000
    rw [f70, htv]; omega
  | ⟨1, _⟩ =>
    show win2_7.index t 1 * 256 ≤ (i 1).val ∧ (i 1).val < win2_7.index t 1 * 256 + 256
    rw [f71]; omega

include hpay in
/-- The result array after the last write-back is the update array of the operand arrays as the region finds them. -/
theorem final2 (c : Dev nD) : (dat2 V c).arrAt 7 cfg2.N
    = updK (V c main_arg0) (V c main_v36) (V c main_v43) (V c main_v58) (V c main_v59) (V c main_v60) (V c main_v61) :=
  (dat2 V c).arrAt_eq_of_cover 7 _ (fun t _ => flushed2_eq V hpay c t) cover2

end

/-! ## Region 3 -/

section

variable (V : (c : Dev nD) → (b : Ref sig .tc) → Buf (Elt Ideal) ((c : Thread nD τ).loc b))

/-- The printed index maps over the grid: the three row operands and the result move with the point, the others stay. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Window 0's block at point `t` is rows `3000 t …` of its array. -/
theorem iblk3_0_apply (c : Dev nD) (t : Fin cfg3.N) (p : Fin 3000) (k : Fin 256) (r : Fin 150000) (hr : r.val = 3000 * t.val + p.val) :
    (iblk3 V c 0 t : Vec Ideal S3000x256 .f32) (ix2 p k) = (V c main_arg1 : S150000x256.Idx → EReal) (ix2 r k) := by
  obtain ⟨f00, f01, f10, f11, f20, f21, f30, f31, f40, f41, f50, f51, f60, f61, f70, f71⟩ := idx_facts3 t
  unfold iblk3
  rw [View.read_apply]
  show V c main_arg1 _ = V c main_arg1 _
  congr 1
  funext a
  apply Fin.ext
  match a with
  | ⟨0, _⟩ => show win3_0.index t 0 * 3000 + 1 * p.val = r.val; rw [f00, hr]; omega
  | ⟨1, _⟩ => show win3_0.index t 1 * 256 + 1 * k.val = k.val; rw [f01]; omega

/-- Window 1's block at point `t` is rows `3000 t …` of its array. -/
theorem iblk3_1_apply (c : Dev nD) (t : Fin cfg3.N) (p : Fin 3000) (k : Fin 256) (r : Fin 150000) (hr : r.val = 3000 * t.val + p.val) :
    (iblk3 V c 1 t : Vec Ideal S3000x256 .bf16) (ix2 p k) = (V c main_v50 : S150000x256.Idx → EReal) (ix2 r k) := by
  obtain ⟨f00, f01, f10, f11, f20, f21, f30, f31, f40, f41, f50, f51, f60, f61, f70, f71⟩ := idx_facts3 t
  unfold iblk3
  rw [View.read_apply]
  show V c main_v50 _ = V c main_v50 _
  congr 1
  funext a
  apply Fin.ext
  match a with
  | ⟨0, _⟩ => show win3_1.index t 0 * 3000 + 1 * p.val = r.val; rw [f10, hr]; omega
  | ⟨1, _⟩ => show win3_1.index t 1 * 256 + 1 * k.val = k.val; rw [f11]; omega

/-- Window 2's block at point `t` is rows `3000 t …` of its array. -/
theorem iblk3_2_apply (c : Dev nD) (t : Fin cfg3.N) (p : Fin 3000) (k : Fin 256) (r : Fin 150000) (hr : r.val = 3000 * t.val + p.val) :
    (iblk3 V c 2 t : Vec Ideal S3000x256 .bf16) (ix2 p k) = (V c main_v57 : S150000x256.Idx → EReal) (ix2 r k) := by
  obtain ⟨f00, f01, f10, f11, f20, f21, f30, f31, f40, f41, f50, f51, f60, f61, f70, f71⟩ := idx_facts3 t
  unfold iblk3
  rw [View.read_apply]
  show V c main_v57 _ = V c main_v57 _
  congr 1
  funext a
  apply Fin.ext
  match a with
  | ⟨0, _⟩ => show win3_2.index t 0 * 3000 + 1 * p.val = r.val; rw [f20, hr]; omega
  | ⟨1, _⟩ => show win3_2.index t 1 * 256 + 1 * k.val = k.val; rw [f21]; omega

/-- Window 3's block at every point is its whole array. -/
theorem iblk3_3_apply (c : Dev nD) (t : Fin cfg3.N) (k : Fin 256) (j : Fin 256) :
    (iblk3 V c 3 t : Vec Ideal S256x256 .f32) (ix2 k j) = (V c main_v63 : S256x256.Idx → EReal) (ix2 k j) := by
  obtain ⟨f00, f01, f10, f11, f20, f21, f30, f31, f40, f41, f50, f51, f60, f61, f70, f71⟩ := idx_facts3 t
  unfold iblk3
  rw [View.read_apply]
  show V c main_v63 _ = V c main_v63 _
  congr 1
  funext a
  apply Fin.ext
  match a with
  | ⟨0, _⟩ => show win3_3.index t 0 * 256 + 1 * k.val = k.val; rw [f30]; omega
  | ⟨1, _⟩ => show win3_3.index t 1 * 256 + 1 * j.val = j.val; rw [f31]; omega

/-- Window 4's block at every point is its whole array. -/
theorem iblk3_4_apply (c : Dev nD) (t : Fin cfg3.N) (k : Fin 256) (j : Fin 256) :
    (iblk3 V c 4 t : Vec Ideal S256x256 .f32) (ix2 k j) = (V c main_v64 : S256x256.Idx → EReal) (ix2 k j) := by
  obtain ⟨f00, f01, f10, f11, f20, f21, f30, f31, f40, f41, f50, f51, f60, f61, f70, f71⟩ := idx_facts3 t
  unfold iblk3
  rw [View.read_apply]
  show V c main_v64 _ = V c main_v64 _
  congr 1
  funext a
  apply Fin.ext
  match a with
  | ⟨0, _⟩ => show win3_4.index t 0 * 256 + 1 * k.val = k.val; rw [f40]; omega
  | ⟨1, _⟩ => show win3_4.index t 1 * 256 + 1 * j.val = j.val; rw [f41]; omega

/-- Window 5's block at every point is its whole array. -/
theorem iblk3_5_apply (c : Dev nD) (t : Fin cfg3.N) (k : Fin 256) (j : Fin 256) :
    (iblk3 V c 5 t : Vec Ideal S256x256 .f32) (ix2 k j) = (V c main_v65 : S256x256.Idx → EReal) (ix2 k j) := by
  obtain ⟨f00, f01, f10, f11, f20, f21, f30, f31, f40, f41, f50, f51, f60, f61, f70, f71⟩ := idx_facts3 t
  unfold iblk3
  rw [View.read_apply]
  show V c main_v65 _ = V c main_v65 _
  congr 1
  funext a
  apply Fin.ext
  match a with
  | ⟨0, _⟩ => show win3_5.index t 0 * 256 + 1 * k.val = k.val; rw [f50]; omega
  | ⟨1, _⟩ => show win3_5.index t 1 * 256 + 1 * j.val = j.val; rw [f51]; omega

/-- Window 6's block at every point is its whole array. -/
theorem iblk3_6_apply (c : Dev nD) (t : Fin cfg3.N) (z : Fin 1) (j : Fin 256) :
    (iblk3 V c 6 t : Vec Ideal S1x256 .f32) (ix2 z j) = (V c main_v66 : S1x256.Idx → EReal) (ix2 z j) := by
  obtain ⟨f00, f01, f10, f11, f20, f21, f30, f31, f40, f41, f50, f51, f60, f61, f70, f71⟩ := idx_facts3 t
  unfold iblk3
  rw [View.read_apply]
  show V c main_v66 _ = V c main_v66 _
  congr 1
  funext a
  apply Fin.ext
  match a with
  | ⟨0, _⟩ => show win3_6.index t 0 * 1 + 1 * z.val = z.val; rw [f60]; omega
  | ⟨1, _⟩ => show win3_6.index t 1 * 256 + 1 * j.val = j.val; rw [f61]; omega

variable (hpay : ∀ (x0 : Vec Ideal S3000x256 .f32) (x1 x2 : Vec Ideal S3000x256 .bf16) (x3 x4 x5 : Vec Ideal S256x256 .f32) (x6 : Vec Ideal S1x256 .f32)
      (p : Fin 3000) (j : Fin 256),
    k3_pay1 (F := Ideal) x0 x1 x2 x3 x4 x5 x6 (ix2 p j)
      = ((((∑ k : Fin 256, (x0 (ix2 p k) : EReal) * (x3 (ix2 k j) : EReal)) + (∑ k : Fin 256, (x1 (ix2 p k) : EReal) * (x4 (ix2 k j) : EReal)))
          + (∑ k : Fin 256, (x2 (ix2 p k) : EReal) * (x5 (ix2 k j) : EReal))) + (x6 (ix2 0 j) : EReal)))

include hpay in
/-- What point `t` writes back is block `t` of the update array of the operand arrays as the region finds them. -/
theorem flushed3_eq (c : Dev nD) (t : Fin cfg3.N) :
    (dat3 V c).flushed 7 t = ((cfg3.win 7).blk t).view.read (Elt Ideal)
      (updK (V c main_arg1) (V c main_v50) (V c main_v57) (V c main_v63) (V c main_v64) (V c main_v65) (V c main_v66)) := by
  show (cfg3.win 7).cut (grid3.coords t) ((dat3 V c).after 7 t) = _
  rw [after3_7]
  unfold out3_7
  rw [View.canon_unit_zero hz]
  simp only [View.ld_unit_zero (S := S3000x256) hz, View.ld_unit_zero (S := S256x256) hz, View.ld_unit_zero (S := S1x256) hz]
  obtain ⟨f00, f01, f10, f11, f20, f21, f30, f31, f40, f41, f50, f51, f60, f61, f70, f71⟩ := idx_facts3 t
  funext y
  obtain ⟨p, j, rfl⟩ : ∃ (p : Fin 3000) (j : Fin 256), y = ix2 p j := ⟨y 0, y 1, eq_ix2 y⟩
  refine (hpay _ _ _ _ _ _ _ p j).trans ?_
  have hp : p.val < 3000 := p.isLt
  have ht : t.val < 50 := lt_of_lt_of_eq t.isLt (show cfg3.N = 50 from N_3)
  rw [View.read_apply]
  show _ = updK (V c main_arg1) (V c main_v50) (V c main_v57) (V c main_v63) (V c main_v64) (V c main_v65) (V c main_v66)
    (((View.whole main_v67).slice ((win3 7).rect t)).emb (ix2 p j))
  have h0 : ((((View.whole main_v67).slice ((win3 7).rect t)).emb (ix2 p j)) 0).val = 3000 * t.val + p.val := by
    show win3_7.index t 0 * 3000 + 1 * p.val = _
    rw [f70]; omega
  have h1 : ((((View.whole main_v67).slice ((win3 7).rect t)).emb (ix2 p j)) 1).val = j.val := by
    show win3_7.index t 1 * 256 + 1 * j.val = _
    rw [f71]; omega
  generalize ((View.whole main_v67).slice ((win3 7).rect t)).emb (ix2 p j) = i at h0 h1 ⊢
  unfold updK updPt
  have hj : (⟨(i 1).val, idx2_lt1 i⟩ : Fin 256) = j := Fin.ext h1
  rw [hj]
  refine congrArg₂ (· + ·) (congrArg₂ (· + ·) (congrArg₂ (· + ·)
    (Finset.sum_congr rfl fun k _ => ?_) (Finset.sum_congr rfl fun k _ => ?_)) (Finset.sum_congr rfl fun k _ => ?_)) (iblk3_6_apply V c t 0 j)
  · rw [iblk3_0_apply V c t p k ⟨(i 0).val, idx2_lt0 i⟩ h0, iblk3_3_apply V c t k j]
  · rw [iblk3_1_apply V c t p k ⟨(i 0).val, idx2_lt0 i⟩ h0, iblk3_4_apply V c t k j]
  · rw [iblk3_2_apply V c t p k ⟨(i 0).val, idx2_lt0 i⟩ h0, iblk3_5_apply V c t k j]

/-- An index of the result array is in point `t`'s block iff each coordinate is in the block's range on its axis. -/
theorem mem_blk3 (t : Fin cfg3.N) (i : S150000x256.Idx) :
    i ∈ ((cfg3.win 7).blk t).view.set ↔ ∀ a : Fin 2, win3_7.index t a * S3000x256.size a ≤ (i a).val ∧ (i a).val < win3_7.index t a * S3000x256.size a + S3000x256.size a := by
  show i ∈ ((View.whole main_v67).slice (win3_7.rect t)).set ↔ _
  rw [View.set_slice_whole, Rect.mem_set_unit]
  exact Iff.rfl

/-- Every row lies in the block of the point `row / 3000`. -/
theorem cover3 (i : S150000x256.Idx) : ∃ t : Fin cfg3.N, (cfg3.win 7).flush t = true ∧ i ∈ ((cfg3.win 7).blk t).view.set := by
  have hi0 : (i 0).val < 150000 := idx2_lt0 i
  have hi1 : (i 1).val < 256 := idx2_lt1 i
  have hN : cfg3.N = 50 := N_3
  obtain ⟨t, htv⟩ : ∃ t : Fin cfg3.N, t.val = (i 0).val / 3000 := ⟨⟨(i 0).val / 3000, by rw [hN]; omega⟩, rfl⟩
  obtain ⟨f00, f01, f10, f11, f20, f21, f30, f31, f40, f41, f50, f51, f60, f61, f70, f71⟩ := idx_facts3 t
  refine ⟨t, flush3_7 t, ?_⟩
  rw [mem_blk3]
  intro a
  match a with
  | ⟨0, _⟩ =>
    show win3_7.index t 0 * 3000 ≤ (i 0).val ∧ (i 0).val < win3_7.index t 0 * 3000 + 3000
    rw [f70, htv]; omega
  | ⟨1, _⟩ =>
    show win3_7.index t 1 * 256 ≤ (i 1).val ∧ (i 1).val < win3_7.index t 1 * 256 + 256
    rw [f71]; omega

include hpay in
/-- The result array after the last write-back is the update array of the operand arrays as the region finds them. -/
theorem final3 (c : Dev nD) : (dat3 V c).arrAt 7 cfg3.N
    = updK (V c main_arg1) (V c main_v50) (V c main_v57) (V c main_v63) (V c main_v64) (V c main_v65) (V c main_v66) :=
  (dat3 V c).arrAt_eq_of_cover 7 _ (fun t _ => flushed3_eq V hpay c t) cover3

end

end Cert.KernelIdeal.BlocksU

end
-- ==== Proof.PointDefs.lean ====
/-
  The arithmetic of one entry, shared vocabulary: the pointwise leaky rectifier as a function of one extended real,
  the select that computes it, a matrix product over the plain dimension numbers read at an entry (the host's and a
  kernel's into the zero splat), a vector laid as one row read at an entry, the identity a narrowing change of format
  is at the extended reals, and a sum over 768 coordinates split into its three runs of 256.
-/
import Idealize.ShloMosaic.Lib.ValueIdx
import Idealize.ShloMosaic.Lib.Pipeline.Value
import Idealize.ShloMosaic.Lib.ValueLayout
import Idealize.ShloMosaic.Lib.StackMember
import Idealize.ShloMosaic.Lib.IdealHost
import Idealize.ShloMosaic.PureOps.Ideal.Laws

noncomputable section

open scoped BigOperators

namespace Cert.Point

open Idealize.ShloMosaic Idealize.ShloMosaic.ValueIdx

/-- The pointwise leaky rectifier both programs apply: `a` where `0 ≤ a`, and `c · a` elsewhere, `c` the
    extended real the f32 word `0x3C23D70A` denotes (the word is never evaluated). -/
def leaky1 (a : EReal) : EReal := if 0 ≤ a then a else Ideal.ofBits .f32 0x3C23D70A#32 * a

/-- The select both programs write, read at one element: a comparison with the zero word, the element itself
    where it holds and the slope times the element where it does not. -/
theorem select_oge_zero (a : Ideal .f32) :
    Scalar.select (FloatOps.cmpf .oge a (Ideal.ofBits .f32 0x00000000#32 : Ideal .f32)) a
        (FloatOps.mulf (Ideal.ofBits .f32 0x3C23D70A#32 : Ideal .f32) a) = leaky1 a := by
  rw [Ideal.ofBits_zero_f32, Ideal.cmpf_def, Ideal.mulf_def]
  unfold leaky1 Ideal.cmp Scalar.select
  by_cases h : (0 : EReal) ≤ a
  · simp [h]
  · simp [h]

/-- The host's product of an m×k by a k×n matrix over the plain dimension numbers, at (a, b): the sum over the
    contracted coordinate of the products of the entries. -/
theorem dotGeneral_plain_apply {m k n : Nat} {φ₁ φ₂ : FTy} (A : FVec Ideal ⟨2, ![m, k]⟩ φ₁) (B : FVec Ideal ⟨2, ![k, n]⟩ φ₂)
    (a : Fin m) (b : Fin n) :
    Host.dotGeneral (DotDims.plain m k n) none A B (ix2 a b) = ∑ c : Fin k, A (ix2 a c) * B (ix2 c b) :=
  StackMember.dotGeneral_plain_apply none A B a b

/-- A kernel's matrix product into the zero splat, over the same dimension numbers, at (a, b): the same sum. -/
theorem matmul_plain_apply {m k n : Nat} {φ₁ φ₂ : FTy} (A : FVec Ideal ⟨2, ![m, k]⟩ φ₁) (B : FVec Ideal ⟨2, ![k, n]⟩ φ₂)
    (a : Fin m) (b : Fin n) :
    matmul (DotDims.plain m k n) none A B (constant ⟨2, ![m, n]⟩ .f32 0x00000000#32) (ix2 a b)
      = ∑ c : Fin k, A (ix2 a c) * B (ix2 c b) := by
  rw [matmul_zero_eq_dotGeneral]
  exact StackMember.dotGeneral_plain_apply none A B a b

/-- A vector laid as the one row of a [1, n] matrix (a broadcast along axis 1), at (0, t): the vector at t. -/
theorem broadcastInDim_asRow_apply {α : Type} {n : Nat} (h : (⟨1, ![n]⟩ : Shape).BroadcastsInDim ⟨2, ![1, n]⟩ ![1])
    (b : (⟨1, ![n]⟩ : Shape).Idx → α) (t : Fin n) :
    broadcastInDim ⟨2, ![1, n]⟩ ![1] h b (ix2 (0 : Fin 1) t) = b (ix1 t) := by
  refine broadcastInDim_apply ![1] h b (ix2 (0 : Fin 1) t) (ix1 t) fun a => ?_
  match a with
  | ⟨0, _⟩ =>
    show t.val = if n = 1 then 0 else t.val
    split
    · have := t.isLt; omega
    · rfl

/-- At the extended reals a narrowing change of format is the identity, on whole vectors. -/
theorem truncf_id {s : Shape} {φ ψ : FTy} (a : FVec Ideal s φ) (h : ψ.bits < φ.bits) :
    (truncf ψ a h : FVec Ideal s ψ) = a := rfl

/-- A sum over 768 coordinates is the sum of its three consecutive runs of 256. -/
theorem sum_768 {M : Type*} [AddCommMonoid M] (g : Fin 768 → M) :
    ∑ q : Fin 768, g q
      = ((∑ k : Fin 256, g ⟨k.val, by omega⟩) + ∑ k : Fin 256, g ⟨256 + k.val, by omega⟩)
          + ∑ k : Fin 256, g ⟨512 + k.val, by omega⟩ := by
  have h1 := Fin.sum_univ_add (M := M) (a := 512) (b := 256) g
  have h2 := Fin.sum_univ_add (M := M) (a := 256) (b := 256) (fun i : Fin 512 => g (Fin.castAdd 256 i))
  rw [h1, h2]
  rfl

end Cert.Point

end
-- ==== Proof.PointMsg.lean ====
/-
  The arithmetic of one entry of a message: the reference's `msg` and the two message kernels' stored values, each
  read at (row, j), are the leaky rectifier of the row against column j of the weights plus entry j of the bias.
-/
import proofs.«136880_j57131654971883_2_alg».proof.Proof.Gen.KernelIdeal.Skeleton
import proofs.«136880_j57131654971883_2_alg».proof.Proof.Gen.KernelIdeal
import proofs.«136880_j57131654971883_2_alg».proof.Proof.Gen.ReferenceIdeal
import proofs.«136880_j57131654971883_2_alg».proof.Proof.Spec
import proofs.«136880_j57131654971883_2_alg».proof.Proof.PointDefs

noncomputable section

open scoped BigOperators

namespace Cert.Point

open Idealize.ShloMosaic Idealize.ShloMosaic.ValueIdx

/-- The reference's affine map at (r, j): row r of `e` against column j of `W`, plus entry j of the bias. -/
theorem spec_lin_apply (e : FVec Ideal Cert.ReferenceIdeal.S150000x256 .f32) (W : FVec Ideal Cert.ReferenceIdeal.S256x256 .f32)
    (b : FVec Ideal Cert.ReferenceIdeal.S256 .f32) (r : Fin 150000) (j : Fin 256) :
    Cert.Spec.lin (F := Ideal) e W b (ix2 r j) = (∑ k : Fin 256, e (ix2 r k) * W (ix2 k j)) + b (ix1 j) := by
  unfold Cert.Spec.lin
  rw [addf_apply]
  refine congrArg₂ (· + ·) ?_ ?_
  · exact dotGeneral_plain_apply e W r j
  · exact (broadcastInDim_oneRow_apply _ _ r j).trans (broadcastInDim_asRow_apply _ b j)

/-- One edge type's message at (r, j): the leaky rectifier of the affine map there. -/
theorem spec_msg_apply (e : FVec Ideal Cert.ReferenceIdeal.S150000x256 .f32) (W : FVec Ideal Cert.ReferenceIdeal.S256x256 .f32)
    (b : FVec Ideal Cert.ReferenceIdeal.S256 .f32) (r : Fin 150000) (j : Fin 256) :
    Cert.Spec.msg (F := Ideal) e W b (ix2 r j) = leaky1 ((∑ k : Fin 256, e (ix2 r k) * W (ix2 k j)) + b (ix1 j)) := by
  unfold Cert.Spec.msg Cert.Spec.leaky
  rw [select_apply, cmpf_apply, mulf_apply, broadcastInDim_scalar_apply, broadcastInDim_scalar_apply, constant_apply,
    constant_apply, spec_lin_apply]
  exact select_oge_zero _

/-- The first message kernel's stored value at (p, j): the same function of row p of its block, its weights
    and its one-row bias (the changes of format on the way in and out are the identity). -/
theorem k0_pay1_apply (x0 : Vec Ideal Cert.KernelIdeal.S5000x256 .f32) (x1 : Vec Ideal Cert.KernelIdeal.S256x256 .f32)
    (x2 : Vec Ideal Cert.KernelIdeal.S1x256 .f32) (p : Fin 5000) (j : Fin 256) :
    Cert.KernelIdeal.Gen.k0_pay1 (F := Ideal) x0 x1 x2 (ix2 p j)
      = leaky1 ((∑ k : Fin 256, x0 (ix2 p k) * x1 (ix2 k j)) + x2 (ix2 0 j)) := by
  unfold Cert.KernelIdeal.Gen.k0_pay1
  simp only [truncf_id, shapeCast_self]
  rw [select_apply, cmpf_apply, mulf_apply, addf_apply, broadcast_apply, broadcast_apply]
  refine (select_oge_zero _).trans (congrArg leaky1 (congrArg₂ (· + ·) ?_ ?_))
  · exact matmul_plain_apply x0 x1 p j
  · exact broadcastTo_1b_ab_apply x2 _ p j

/-- The second message kernel's stored value at (p, j): the same function of row p of its block, its weights
    and its one-row bias (the changes of format on the way in and out are the identity). -/
theorem k1_pay1_apply (x0 : Vec Ideal Cert.KernelIdeal.S5000x256 .f32) (x1 : Vec Ideal Cert.KernelIdeal.S256x256 .f32)
    (x2 : Vec Ideal Cert.KernelIdeal.S1x256 .f32) (p : Fin 5000) (j : Fin 256) :
    Cert.KernelIdeal.Gen.k1_pay1 (F := Ideal) x0 x1 x2 (ix2 p j)
      = leaky1 ((∑ k : Fin 256, x0 (ix2 p k) * x1 (ix2 k j)) + x2 (ix2 0 j)) := by
  unfold Cert.KernelIdeal.Gen.k1_pay1
  simp only [truncf_id, shapeCast_self]
  rw [select_apply, cmpf_apply, mulf_apply, addf_apply, broadcast_apply, broadcast_apply]
  refine (select_oge_zero _).trans (congrArg leaky1 (congrArg₂ (· + ·) ?_ ?_))
  · exact matmul_plain_apply x0 x1 p j
  · exact broadcastTo_1b_ab_apply x2 _ p j

end Cert.Point

end
-- ==== Proof.PointUpd.lean ====
/-
  The arithmetic of one entry of an edge update: the reference's `upd` — one product of the three operands laid side
  by side against the [768, 256] weights — and the two update kernels' stored values — three products against the
  weights' three [256, 256] parts, added — each read at (row, j), are the same three sums over 256 coordinates,
  added in the same order, plus entry j of the bias.
-/
import proofs.«136880_j57131654971883_2_alg».proof.Proof.Gen.KernelIdeal.Skeleton
import proofs.«136880_j57131654971883_2_alg».proof.Proof.Gen.KernelIdeal
import proofs.«136880_j57131654971883_2_alg».proof.Proof.Gen.ReferenceIdeal
import proofs.«136880_j57131654971883_2_alg».proof.Proof.Spec
import proofs.«136880_j57131654971883_2_alg».proof.Proof.PointDefs

noncomputable section

open scoped BigOperators

namespace Cert.Point

open Idealize.ShloMosaic Idealize.ShloMosaic.ValueIdx

section Concat
variable {α : Type} (e rs rd : (⟨2, ![150000, 256]⟩ : Shape).Idx → α)
  (h : Shape.Concatenates [(⟨2, ![150000, 256]⟩ : Shape), ⟨2, ![150000, 256]⟩, ⟨2, ![150000, 256]⟩] ⟨2, ![150000, 768]⟩ 1)
  (r : Fin 150000) (k : Fin 256)

/-- Three [150000, 256] arrays side by side: in the first run of 256 columns the row reads the first array, -/
theorem concat3_apply_fst :
    concatenate ⟨2, ![150000, 768]⟩ 1 [⟨⟨2, ![150000, 256]⟩, e⟩, ⟨⟨2, ![150000, 256]⟩, rs⟩, ⟨⟨2, ![150000, 256]⟩, rd⟩] h
      (ix2 r (⟨k.val, by omega⟩ : Fin 768)) = e (ix2 r k) := by
  refine concatenate_apply_piece (t := ⟨2, ![150000, 768]⟩) 1 [⟨⟨2, ![150000, 256]⟩, e⟩, ⟨⟨2, ![150000, 256]⟩, rs⟩, ⟨⟨2, ![150000, 256]⟩, rd⟩] h _ 0 (by show (0 : Nat) < 3; decide) ⟨2, ![150000, 256]⟩ e rfl rfl 0 rfl (ix2 r k) (fun b hb => ?_) ?_
  · match b with
    | ⟨0, _⟩ => rfl
    | ⟨1, _⟩ => exact absurd rfl hb
  · show 0 + k.val = k.val
    omega

/-- in the second run the second array, -/
theorem concat3_apply_snd :
    concatenate ⟨2, ![150000, 768]⟩ 1 [⟨⟨2, ![150000, 256]⟩, e⟩, ⟨⟨2, ![150000, 256]⟩, rs⟩, ⟨⟨2, ![150000, 256]⟩, rd⟩] h
      (ix2 r (⟨256 + k.val, by omega⟩ : Fin 768)) = rs (ix2 r k) := by
  refine concatenate_apply_piece (t := ⟨2, ![150000, 768]⟩) 1 [⟨⟨2, ![150000, 256]⟩, e⟩, ⟨⟨2, ![150000, 256]⟩, rs⟩, ⟨⟨2, ![150000, 256]⟩, rd⟩] h _ 1 (by show (1 : Nat) < 3; decide) ⟨2, ![150000, 256]⟩ rs rfl rfl 256 rfl (ix2 r k) (fun b hb => ?_) ?_
  · match b with
    | ⟨0, _⟩ => rfl
    | ⟨1, _⟩ => exact absurd rfl hb
  · rfl

/-- and in the third run the third. -/
theorem concat3_apply_trd :
    concatenate ⟨2, ![150000, 768]⟩ 1 [⟨⟨2, ![150000, 256]⟩, e⟩, ⟨⟨2, ![150000, 256]⟩, rs⟩, ⟨⟨2, ![150000, 256]⟩, rd⟩] h
      (ix2 r (⟨512 + k.val, by omega⟩ : Fin 768)) = rd (ix2 r k) := by
  refine concatenate_apply_piece (t := ⟨2, ![150000, 768]⟩) 1 [⟨⟨2, ![150000, 256]⟩, e⟩, ⟨⟨2, ![150000, 256]⟩, rs⟩, ⟨⟨2, ![150000, 256]⟩, rd⟩] h _ 2 (by show (2 : Nat) < 3; decide) ⟨2, ![150000, 256]⟩ rd rfl rfl 512 rfl (ix2 r k) (fun b hb => ?_) ?_
  · match b with
    | ⟨0, _⟩ => rfl
    | ⟨1, _⟩ => exact absurd rfl hb
  · rfl

end Concat

/-- The reference's edge update at (r, j): row r of each of the three operands against its own run of 256 rows of
    the weights, the three sums added, plus entry j of the bias. -/
theorem spec_upd_apply (e rs rd : FVec Ideal Cert.ReferenceIdeal.S150000x256 .f32) (We : FVec Ideal Cert.ReferenceIdeal.S768x256 .f32)
    (be : FVec Ideal Cert.ReferenceIdeal.S256 .f32) (r : Fin 150000) (j : Fin 256) :
    Cert.Spec.upd (F := Ideal) e rs rd We be (ix2 r j)
      = (((∑ k : Fin 256, e (ix2 r k) * We (ix2 (⟨k.val, by omega⟩ : Fin 768) j))
            + (∑ k : Fin 256, rs (ix2 r k) * We (ix2 (⟨256 + k.val, by omega⟩ : Fin 768) j)))
          + (∑ k : Fin 256, rd (ix2 r k) * We (ix2 (⟨512 + k.val, by omega⟩ : Fin 768) j))) + be (ix1 j) := by
  unfold Cert.Spec.upd
  rw [addf_apply]
  refine congrArg₂ (· + ·) ?_ ?_
  · refine (dotGeneral_plain_apply (m := 150000) (k := 768) (n := 256) _ We r j).trans ((sum_768 _).trans ?_)
    refine congrArg₂ (· + ·) (congrArg₂ (· + ·) (Finset.sum_congr rfl fun k _ => ?_) (Finset.sum_congr rfl fun k _ => ?_))
      (Finset.sum_congr rfl fun k _ => ?_)
    · exact congrArg (· * We _) (concat3_apply_fst e rs rd _ r k)
    · exact congrArg (· * We _) (concat3_apply_snd e rs rd _ r k)
    · exact congrArg (· * We _) (concat3_apply_trd e rs rd _ r k)
  · exact (broadcastInDim_oneRow_apply _ _ r j).trans (broadcastInDim_asRow_apply _ be j)

/-- The first update kernel's stored value at (p, j): row p of each of the three operands against its own [256, 256]
    weights, the three sums added in the same order, plus entry j of the one-row bias. -/
theorem k2_pay1_apply (x0 : Vec Ideal Cert.KernelIdeal.S3000x256 .f32) (x1 x2 : Vec Ideal Cert.KernelIdeal.S3000x256 .bf16)
    (x3 x4 x5 : Vec Ideal Cert.KernelIdeal.S256x256 .f32) (x6 : Vec Ideal Cert.KernelIdeal.S1x256 .f32) (p : Fin 3000) (j : Fin 256) :
    Cert.KernelIdeal.Gen.k2_pay1 (F := Ideal) x0 x1 x2 x3 x4 x5 x6 (ix2 p j)
      = (((∑ k : Fin 256, x0 (ix2 p k) * x3 (ix2 k j)) + (∑ k : Fin 256, x1 (ix2 p k) * x4 (ix2 k j)))
          + (∑ k : Fin 256, x2 (ix2 p k) * x5 (ix2 k j))) + x6 (ix2 0 j) := by
  unfold Cert.KernelIdeal.Gen.k2_pay1
  simp only [truncf_id, shapeCast_self]
  rw [addf_apply, addf_apply, addf_apply]
  refine congrArg₂ (· + ·) (congrArg₂ (· + ·) (congrArg₂ (· + ·) ?_ ?_) ?_) ?_
  · exact matmul_plain_apply x0 x3 p j
  · exact matmul_plain_apply x1 x4 p j
  · exact matmul_plain_apply x2 x5 p j
  · exact broadcastTo_1b_ab_apply x6 _ p j

/-- The second update kernel's stored value at (p, j): row p of each of the three operands against its own [256, 256]
    weights, the three sums added in the same order, plus entry j of the one-row bias. -/
theorem k3_pay1_apply (x0 : Vec Ideal Cert.KernelIdeal.S3000x256 .f32) (x1 x2 : Vec Ideal Cert.KernelIdeal.S3000x256 .bf16)
    (x3 x4 x5 : Vec Ideal Cert.KernelIdeal.S256x256 .f32) (x6 : Vec Ideal Cert.KernelIdeal.S1x256 .f32) (p : Fin 3000) (j : Fin 256) :
    Cert.KernelIdeal.Gen.k3_pay1 (F := Ideal) x0 x1 x2 x3 x4 x5 x6 (ix2 p j)
      = (((∑ k : Fin 256, x0 (ix2 p k) * x3 (ix2 k j)) + (∑ k : Fin 256, x1 (ix2 p k) * x4 (ix2 k j)))
          + (∑ k : Fin 256, x2 (ix2 p k) * x5 (ix2 k j))) + x6 (ix2 0 j) := by
  unfold Cert.KernelIdeal.Gen.k3_pay1
  simp only [truncf_id, shapeCast_self]
  rw [addf_apply, addf_apply, addf_apply]
  refine congrArg₂ (· + ·) (congrArg₂ (· + ·) (congrArg₂ (· + ·) ?_ ?_) ?_) ?_
  · exact matmul_plain_apply x0 x3 p j
  · exact matmul_plain_apply x1 x4 p j
  · exact matmul_plain_apply x2 x5 p j
  · exact broadcastTo_1b_ab_apply x6 _ p j

end Cert.Point

end
-- ==== Proof.Bridge.lean ====
/-
  The arrays the four kernel regions leave are the reference's functions: a message array, with the bias given its
  unit axis by a reshape, is `msg`; an update array, with the [768, 256] weights cut into their three [256, 256] runs of
  rows and the bias reshaped likewise, is `upd`.  Entry by entry both sides are the same sums: a reshape [256] → [1, 256]
  read at (0, j) is the vector at j, and the run of rows from `o` read at (k, j) is the weights at (o + k, j).
-/
import proofs.«136880_j57131654971883_2_alg».proof.Proof.BlocksMsg
import proofs.«136880_j57131654971883_2_alg».proof.Proof.BlocksUpd
import proofs.«136880_j57131654971883_2_alg».proof.Proof.PointMsg
import proofs.«136880_j57131654971883_2_alg».proof.Proof.PointUpd

noncomputable section

open scoped BigOperators

namespace Cert.Bridge

open Idealize.ShloMosaic Idealize.ShloMosaic.ValueIdx

/-- A message array at (r, j), its coordinates named. -/
theorem msgK_apply (φ : EReal → EReal) (e : FVec Ideal Cert.KernelIdeal.S150000x256 .f32) (W : FVec Ideal Cert.KernelIdeal.S256x256 .f32)
    (b2 : FVec Ideal Cert.KernelIdeal.S1x256 .f32) (r : Fin 150000) (j : Fin 256) :
    Cert.KernelIdeal.Blocks.msgK φ e W b2 (ix2 r j) = φ ((∑ k : Fin 256, e (ix2 r k) * W (ix2 k j)) + b2 (ix2 0 j)) := rfl

/-- An update array at (r, j), its coordinates named. -/
theorem updK_apply (e : FVec Ideal Cert.KernelIdeal.S150000x256 .f32) (rs rd : FVec Ideal Cert.KernelIdeal.S150000x256 .bf16)
    (A B C : FVec Ideal Cert.KernelIdeal.S256x256 .f32) (b2 : FVec Ideal Cert.KernelIdeal.S1x256 .f32) (r : Fin 150000) (j : Fin 256) :
    Cert.KernelIdeal.BlocksU.updK e rs rd A B C b2 (ix2 r j)
      = (((∑ k : Fin 256, e (ix2 r k) * A (ix2 k j)) + (∑ k : Fin 256, rs (ix2 r k) * B (ix2 k j)))
          + (∑ k : Fin 256, rd (ix2 r k) * C (ix2 k j))) + b2 (ix2 0 j) := rfl

/-- The message array over the reshaped bias is the reference's `msg`. -/
theorem msg_bridge (e : FVec Ideal Cert.KernelIdeal.S150000x256 .f32) (W : FVec Ideal Cert.KernelIdeal.S256x256 .f32)
    (b : FVec Ideal Cert.KernelIdeal.S256 .f32) :
    Cert.KernelIdeal.Blocks.msgK Cert.Point.leaky1 e W
        (shapeCast Cert.KernelIdeal.S1x256 b Cert.KernelIdeal.Facts₀.shapeCasts_S256_S1x256)
      = Cert.Spec.msg (F := Ideal) e W b := by
  funext i
  obtain ⟨r, j, rfl⟩ : ∃ (r : Fin 150000) (j : Fin 256), i = ix2 r j := ⟨i 0, i 1, eq_ix2 i⟩
  rw [msgK_apply, Cert.Point.spec_msg_apply]
  exact congrArg (fun t => Cert.Point.leaky1 ((∑ k : Fin 256, e (ix2 r k) * W (ix2 k j)) + t)) (shapeCast_a_1a_apply b _ 0 j)

/-- The update array over the three runs of rows of the weights and the reshaped bias is the reference's `upd`. -/
theorem upd_bridge (e : FVec Ideal Cert.KernelIdeal.S150000x256 .f32) (rs rd : FVec Ideal Cert.KernelIdeal.S150000x256 .bf16)
    (We : FVec Ideal Cert.KernelIdeal.S768x256 .f32) (be : FVec Ideal Cert.KernelIdeal.S256 .f32) :
    Cert.KernelIdeal.BlocksU.updK e rs rd
        (extractStridedSlice Cert.KernelIdeal.S256x256 ![0, 0] We Cert.KernelIdeal.Facts₀.slices_S768x256_S256x256_0_0)
        (extractStridedSlice Cert.KernelIdeal.S256x256 ![256, 0] We Cert.KernelIdeal.Facts₀.slices_S768x256_S256x256_256_0)
        (extractStridedSlice Cert.KernelIdeal.S256x256 ![512, 0] We Cert.KernelIdeal.Facts₀.slices_S768x256_S256x256_512_0)
        (shapeCast Cert.KernelIdeal.S1x256 be Cert.KernelIdeal.Facts₀.shapeCasts_S256_S1x256)
      = Cert.Spec.upd (F := Ideal) e rs rd We be := by
  funext i
  obtain ⟨r, j, rfl⟩ : ∃ (r : Fin 150000) (j : Fin 256), i = ix2 r j := ⟨i 0, i 1, eq_ix2 i⟩
  rw [updK_apply, Cert.Point.spec_upd_apply]
  refine congrArg₂ (· + ·) (congrArg₂ (· + ·) (congrArg₂ (· + ·) (Finset.sum_congr rfl fun k _ => ?_)
    (Finset.sum_congr rfl fun k _ => ?_)) (Finset.sum_congr rfl fun k _ => ?_)) (shapeCast_a_1a_apply be _ 0 j)
  · exact congrArg (e (ix2 r k) * ·) (slice2_axis0_apply 0 We _ k j ⟨k.val, by omega⟩ (Nat.zero_add _).symm)
  · exact congrArg (rs (ix2 r k) * ·) (slice2_axis0_apply 256 We _ k j ⟨256 + k.val, by omega⟩ rfl)
  · exact congrArg (rd (ix2 r k) * ·) (slice2_axis0_apply 512 We _ k j ⟨512 + k.val, by omega⟩ rfl)

end Cert.Bridge

end
-- ==== Proof.KernelValue.lean ====
/-
  The idealized kernel program's two results as functions of the launch contents.

  Region 0 leaves edge type 0's messages `msg e0 W0 b0` and region 1 edge type 1's `msg e1 W1 b1` (each block is a
  restriction of the whole-array function, and a block's entry is the reference's entry).  The long host stretch
  turns them into the gathered mean rows `rows (rel μ dst) idx`; region 2 and region 3 leave
  `upd e rs rd We be` with the weights cut into their three blocks.  Composed: `Cert.Spec.out0` and `Cert.Spec.out1`
  of the fourteen argument arrays.
-/
import proofs.«136880_j57131654971883_2_alg».proof.Proof.HostOps
import proofs.«136880_j57131654971883_2_alg».proof.Proof.HostWalk
import proofs.«136880_j57131654971883_2_alg».proof.Proof.Bridge

set_option maxRecDepth 16384

noncomputable section

namespace Cert.KernelIdeal.Value

open Cert.KernelIdeal Cert.KernelIdeal.Gen Cert.KernelIdeal.Host Cert.KernelIdeal.Walk
open Idealize.ShloMosaic Idealize.ShloMosaic.TcCoe Idealize.SL.Sem

variable (m : (ℓ : Loc nD τ sig) → Buf (Elt Ideal) ℓ) (ρ : Dev nD → PrngReg)

/-- Region 0 leaves edge type 0's messages. -/
theorem msg0 (c : Dev nD) : (dat0 (V1 m ρ) c).arrAt 3 cfg0.N
    = Cert.Spec.msg (F := Ideal) (m ((c : Thread nD τ).loc main_arg0)) (m ((c : Thread nD τ).loc main_arg6)) (m ((c : Thread nD τ).loc main_arg7)) := by
  refine (Cert.KernelIdeal.Blocks.final0 (V1 m ρ) Cert.Point.leaky1 Cert.Point.k0_pay1_apply c).trans ?_
  have e0 : V1 m ρ c main_arg0 = (m ((c : Thread nD τ).loc main_arg0)) := W1_main_arg0 m ρ c
  have e1 : V1 m ρ c main_arg6 = (m ((c : Thread nD τ).loc main_arg6)) := W1_main_arg6 m ρ c
  have e2 : V1 m ρ c main_v0 = shapeCast S1x256 (m ((c : Thread nD τ).loc main_arg7)) Facts₀.shapeCasts_S256_S1x256 := ops0_v0 (W0 m ρ c)
  rw [e0, e1, e2]
  exact Cert.Bridge.msg_bridge _ _ _

/-- Region 1 leaves edge type 1's messages. -/
theorem msg1 (c : Dev nD) : (dat1 (V3 m ρ) c).arrAt 3 cfg1.N
    = Cert.Spec.msg (F := Ideal) (m ((c : Thread nD τ).loc main_arg1)) (m ((c : Thread nD τ).loc main_arg8)) (m ((c : Thread nD τ).loc main_arg9)) := by
  refine (Cert.KernelIdeal.Blocks.final1 (V3 m ρ) Cert.Point.leaky1 Cert.Point.k1_pay1_apply c).trans ?_
  have e0 : V3 m ρ c main_arg1 = (m ((c : Thread nD τ).loc main_arg1)) := W3_main_arg1 m ρ c
  have e1 : V3 m ρ c main_arg8 = (m ((c : Thread nD τ).loc main_arg8)) := W3_main_arg8 m ρ c
  have e2 : V3 m ρ c main_v2 = shapeCast S1x256 (m ((c : Thread nD τ).loc main_arg9)) Facts₀.shapeCasts_S256_S1x256 :=
    (ops1_v2 (W2 m ρ c)).trans (by rw [W2_main_arg9 m ρ c])
  rw [e0, e1, e2]
  exact Cert.Bridge.msg_bridge _ _ _

/-- Edge type 0's mean rows at `src0`, as region 2 finds them. -/
theorem rows_v36 (c : Dev nD) : V5 m ρ c main_v36 = Cert.Spec.rows (F := Ideal) (Cert.Spec.rel (F := Ideal) (Cert.Spec.msg (F := Ideal) (m ((c : Thread nD τ).loc main_arg0)) (m ((c : Thread nD τ).loc main_arg6)) (m ((c : Thread nD τ).loc main_arg7))) (m ((c : Thread nD τ).loc main_arg3))) (m ((c : Thread nD τ).loc main_arg2)) := by
  refine (ops2_v36 (W4 m ρ c)).trans ?_
  rw [W4_main_v1 m ρ c, msg0 m ρ c, W4_main_arg3 m ρ c, W4_main_arg2 m ρ c]

/-- Edge type 1's mean rows at `dst0`, as region 2 finds them. -/
theorem rows_v43 (c : Dev nD) : V5 m ρ c main_v43 = Cert.Spec.rows (F := Ideal) (Cert.Spec.rel (F := Ideal) (Cert.Spec.msg (F := Ideal) (m ((c : Thread nD τ).loc main_arg1)) (m ((c : Thread nD τ).loc main_arg8)) (m ((c : Thread nD τ).loc main_arg9))) (m ((c : Thread nD τ).loc main_arg5))) (m ((c : Thread nD τ).loc main_arg3)) := by
  refine (ops2_v43 (W4 m ρ c)).trans ?_
  rw [W4_main_v3 m ρ c, msg1 m ρ c, W4_main_arg5 m ρ c, W4_main_arg3 m ρ c]

/-- Edge type 0's mean rows at `src1`, as region 3 finds them. -/
theorem rows_v50 (c : Dev nD) : V7 m ρ c main_v50 = Cert.Spec.rows (F := Ideal) (Cert.Spec.rel (F := Ideal) (Cert.Spec.msg (F := Ideal) (m ((c : Thread nD τ).loc main_arg0)) (m ((c : Thread nD τ).loc main_arg6)) (m ((c : Thread nD τ).loc main_arg7))) (m ((c : Thread nD τ).loc main_arg3))) (m ((c : Thread nD τ).loc main_arg4)) := by
  refine (ops3_v50 (W6 m ρ c)).trans ((W6_main_v50 m ρ c).trans ((ops2_v50 (W4 m ρ c)).trans ?_))
  rw [W4_main_v1 m ρ c, msg0 m ρ c, W4_main_arg3 m ρ c, W4_main_arg4 m ρ c]

/-- Edge type 1's mean rows at `dst1`, as region 3 finds them. -/
theorem rows_v57 (c : Dev nD) : V7 m ρ c main_v57 = Cert.Spec.rows (F := Ideal) (Cert.Spec.rel (F := Ideal) (Cert.Spec.msg (F := Ideal) (m ((c : Thread nD τ).loc main_arg1)) (m ((c : Thread nD τ).loc main_arg8)) (m ((c : Thread nD τ).loc main_arg9))) (m ((c : Thread nD τ).loc main_arg5))) (m ((c : Thread nD τ).loc main_arg5)) := by
  refine (ops3_v57 (W6 m ρ c)).trans ((W6_main_v57 m ρ c).trans ((ops2_v57 (W4 m ρ c)).trans ?_))
  rw [W4_main_v3 m ρ c, msg1 m ρ c, W4_main_arg5 m ρ c]

/-- The first result at the end of the run. -/
theorem out0 (c : Dev nD) : W8 m ρ c (Proc.devRef .tc main_v62)
    = Cert.Spec.out0 (F := Ideal) (m ((c : Thread nD τ).loc main_arg0)) (m ((c : Thread nD τ).loc main_arg1)) (m ((c : Thread nD τ).loc main_arg2)) (m ((c : Thread nD τ).loc main_arg3)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_main_v62 m ρ c).trans ((Cert.KernelIdeal.BlocksU.final2 (V5 m ρ) Cert.Point.k2_pay1_apply c).trans ?_)
  have e0 : V5 m ρ c main_arg0 = (m ((c : Thread nD τ).loc main_arg0)) := (ops2_arg0 (W4 m ρ c)).trans (W4_main_arg0 m ρ c)
  have e3 : V5 m ρ c main_v58 = extractStridedSlice S256x256 ![0, 0] (m ((c : Thread nD τ).loc main_arg10)) Facts₀.slices_S768x256_S256x256_0_0 := (ops2_v58 (W4 m ρ c)).trans (by rw [W4_main_arg10 m ρ c])
  have e4 : V5 m ρ c main_v59 = extractStridedSlice S256x256 ![256, 0] (m ((c : Thread nD τ).loc main_arg10)) Facts₀.slices_S768x256_S256x256_256_0 := (ops2_v59 (W4 m ρ c)).trans (by rw [W4_main_arg10 m ρ c])
  have e5 : V5 m ρ c main_v60 = extractStridedSlice S256x256 ![512, 0] (m ((c : Thread nD τ).loc main_arg10)) Facts₀.slices_S768x256_S256x256_512_0 := (ops2_v60 (W4 m ρ c)).trans (by rw [W4_main_arg10 m ρ c])
  have e6 : V5 m ρ c main_v61 = shapeCast S1x256 (m ((c : Thread nD τ).loc main_arg11)) Facts₀.shapeCasts_S256_S1x256 :=
    (ops2_v61 (W4 m ρ c)).trans (by rw [W4_main_arg11 m ρ c])
  rw [e0, rows_v36 m ρ c, rows_v43 m ρ c, e3, e4, e5, e6]
  unfold Cert.Spec.out0
  exact Cert.Bridge.upd_bridge _ _ _ _ _

/-- The second result at the end of the run. -/
theorem out1 (c : Dev nD) : W8 m ρ c (Proc.devRef .tc main_v67)
    = Cert.Spec.out1 (F := Ideal) (m ((c : Thread nD τ).loc main_arg0)) (m ((c : Thread nD τ).loc main_arg1)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  refine (W8_main_v67 m ρ c).trans ((Cert.KernelIdeal.BlocksU.final3 (V7 m ρ) Cert.Point.k3_pay1_apply c).trans ?_)
  have e0 : V7 m ρ c main_arg1 = (m ((c : Thread nD τ).loc main_arg1)) := (ops3_arg1 (W6 m ρ c)).trans (W6_main_arg1 m ρ c)
  have e3 : V7 m ρ c main_v63 = extractStridedSlice S256x256 ![0, 0] (m ((c : Thread nD τ).loc main_arg12)) Facts₀.slices_S768x256_S256x256_0_0 := (ops3_v63 (W6 m ρ c)).trans (by rw [W6_main_arg12 m ρ c])
  have e4 : V7 m ρ c main_v64 = extractStridedSlice S256x256 ![256, 0] (m ((c : Thread nD τ).loc main_arg12)) Facts₀.slices_S768x256_S256x256_256_0 := (ops3_v64 (W6 m ρ c)).trans (by rw [W6_main_arg12 m ρ c])
  have e5 : V7 m ρ c main_v65 = extractStridedSlice S256x256 ![512, 0] (m ((c : Thread nD τ).loc main_arg12)) Facts₀.slices_S768x256_S256x256_512_0 := (ops3_v65 (W6 m ρ c)).trans (by rw [W6_main_arg12 m ρ c])
  have e6 : V7 m ρ c main_v66 = shapeCast S1x256 (m ((c : Thread nD τ).loc main_arg13)) Facts₀.shapeCasts_S256_S1x256 :=
    (ops3_v66 (W6 m ρ c)).trans (by rw [W6_main_arg13 m ρ c])
  rw [e0, rows_v50 m ρ c, rows_v57 m ρ c, e3, e4, e5, e6]
  unfold Cert.Spec.out1
  exact Cert.Bridge.upd_bridge _ _ _ _ _

end Cert.KernelIdeal.Value

end
-- ==== Proof.RefOps.lean ====
/-
  The reference program's @main as a straight line of its 98 host operations, and its run.

  @main is 86 statements, two of them calls of the outlined function @leaky_relu, whose body is six operations and
  a call of @_where (one select). Each call is listed here unfolded at its call site over that call's own buffers
  (the records `main_call0` and `main_call1`): the zero and its broadcast, the comparison `x ≥ 0`, the slope and its
  broadcast, the product `slope · x`, and the select. `main_eq` says @main is this line: the two functions'
  definitions unfolded at their calls and sequencing reassociated. `run_main` is then the library's run of a
  straight line: every weakly fair execution terminates with each buffer at the fold of the operations' results
  over the launch contents.
-/
import proofs.«136880_j57131654971883_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- @main's 98 operations in order, the two calls of @leaky_relu unfolded (seven operations each). -/
abbrev ops : List (HloOp τ sig (Elt F)) :=
  binary main_arg0 main_arg6 main_v0 ((fun l r => Host.dotGeneral dot_S150000x256_S256x256_S150000x256_1_0_0_1_n_n none l r) : (⟨S150000x256, .f32⟩ : BufTy).Contents (Elt F) → (⟨S256x256, .f32⟩ : BufTy).Contents (Elt F) → (⟨S150000x256, .f32⟩ : BufTy).Contents (Elt F)) ::
  unary main_arg7 main_v1 (broadcastInDim S1x256 ![1] bcast_S256_S1x256_1 : (⟨S256, .f32⟩ : BufTy).Contents (Elt F) → (⟨S1x256, .f32⟩ : BufTy).Contents (Elt F)) ::
  unary main_v1 main_v2 (broadcastInDim S150000x256 ![0, 1] bcast_S1x256_S150000x256_0_1 : (⟨S1x256, .f32⟩ : BufTy).Contents (Elt F) → (⟨S150000x256, .f32⟩ : BufTy).Contents (Elt F)) ::
  binary main_v0 main_v2 main_v3 (addf : (⟨S150000x256, .f32⟩ : BufTy).Contents (Elt F) → (⟨S150000x256, .f32⟩ : BufTy).Contents (Elt F) → (⟨S150000x256, .f32⟩ : BufTy).Contents (Elt F)) ::
  TRef.nullary main_call0.cst (constant S_ .f32 0x00000000#32) ::
  TRef.unary main_call0.cst main_call0.v0 (broadcastInDim S150000x256 ![] bcast_S_S150000x256) ::
  TRef.binary (.of main_v3) main_call0.v0 main_call0.v1 (cmpf .oge) ::
  TRef.nullary main_call0.cst_0 (constant S_ .f32 0x3C23D70A#32) ::
  TRef.unary main_call0.cst_0 main_call0.v2 (broadcastInDim S150000x256 ![] bcast_S_S150000x256) ::
  TRef.binary main_call0.v2 (.of main_v3) main_call0.v3 mulf ::
  TRef.ternary main_call0.v1 (.of main_v3) main_call0.v3 main_call0.call0.v0 select ::
  binary main_arg1 main_arg8 main_v5 ((fun l r => Host.dotGeneral dot_S150000x256_S256x256_S150000x256_1_0_0_1_n_n none l r) : (⟨S150000x256, .f32⟩ : BufTy).Contents (Elt F) → (⟨S256x256, .f32⟩ : BufTy).Contents (Elt F) → (⟨S150000x256, .f32⟩ : BufTy).Contents (Elt F)) ::
  unary main_arg9 main_v6 (broadcastInDim S1x256 ![1] bcast_S256_S1x256_1 : (⟨S256, .f32⟩ : BufTy).Contents (Elt F) → (⟨S1x256, .f32⟩ : BufTy).Contents (Elt F)) ::
  unary main_v6 main_v7 (broadcastInDim S150000x256 ![0, 1] bcast_S1x256_S150000x256_0_1 : (⟨S1x256, .f32⟩ : BufTy).Contents (Elt F) → (⟨S150000x256, .f32⟩ : BufTy).Contents (Elt F)) ::
  binary main_v5 main_v7 main_v8 (addf : (⟨S150000x256, .f32⟩ : BufTy).Contents (Elt F) → (⟨S150000x256, .f32⟩ : BufTy).Contents (Elt F) → (⟨S150000x256, .f32⟩ : BufTy).Contents (Elt F)) ::
  TRef.nullary main_call1.cst (constant S_ .f32 0x00000000#32) ::
  TRef.unary main_call1.cst main_call1.v0 (broadcastInDim S150000x256 ![] bcast_S_S150000x256) ::
  TRef.binary (.of main_v8) main_call1.v0 main_call1.v1 (cmpf .oge) ::
  TRef.nullary main_call1.cst_0 (constant S_ .f32 0x3C23D70A#32) ::
  TRef.unary main_call1.cst_0 main_call1.v2 (broadcastInDim S150000x256 ![] bcast_S_S150000x256) ::
  TRef.binary main_call1.v2 (.of main_v8) main_call1.v3 mulf ::
  TRef.ternary main_call1.v1 (.of main_v8) main_call1.v3 main_call1.call0.v0 select ::
  nullary main_cst (constant S_ .f32 0x00000000#32) ::
  unary main_cst main_v10 (broadcastInDim S50000x256 ![] bcast_S_S50000x256 : (⟨S_, .f32⟩ : BufTy).Contents (Elt F) → (⟨S50000x256, .f32⟩ : BufTy).Contents (Elt F)) ::
  unary main_arg3 main_v11 (broadcastInDim S150000x1 ![0] bcast_S150000_S150000x1_0 : (⟨S150000, .i32⟩ : BufTy).Contents (Elt F) → (⟨S150000x1, .i32⟩ : BufTy).Contents (Elt F)) ::
  ternary main_v10 main_v11 main_v4 main_v12 ((fun x i u => Host.scatterAdd scatter_S50000x256_S150000x1_S150000x256_1_0_0_1 x i u) : (⟨S50000x256, .f32⟩ : BufTy).Contents (Elt F) → (⟨S150000x1, .i32⟩ : BufTy).Contents (Elt F) → (⟨S150000x256, .f32⟩ : BufTy).Contents (Elt F) → (⟨S50000x256, .f32⟩ : BufTy).Contents (Elt F)) ::
  nullary main_cst_0 (constant S_ .f32 0x3F800000#32) ::
  unary main_cst_0 main_v13 (broadcastInDim S150000x1 ![] bcast_S_S150000x1 : (⟨S_, .f32⟩ : BufTy).Contents (Elt F) → (⟨S150000x1, .f32⟩ : BufTy).Contents (Elt F)) ::
  nullary main_cst_1 (constant S_ .f32 0x00000000#32) ::
  unary main_cst_1 main_v14 (broadcastInDim S50000x1 ![] bcast_S_S50000x1 : (⟨S_, .f32⟩ : BufTy).Contents (Elt F) → (⟨S50000x1, .f32⟩ : BufTy).Contents (Elt F)) ::
  unary main_arg3 main_v15 (broadcastInDim S150000x1 ![0] bcast_S150000_S150000x1_0 : (⟨S150000, .i32⟩ : BufTy).Contents (Elt F) → (⟨S150000x1, .i32⟩ : BufTy).Contents (Elt F)) ::
  ternary main_v14 main_v15 main_v13 main_v16 ((fun x i u => Host.scatterAdd scatter_S50000x1_S150000x1_S150000x1_1_0_0_1 x i u) : (⟨S50000x1, .f32⟩ : BufTy).Contents (Elt F) → (⟨S150000x1, .i32⟩ : BufTy).Contents (Elt F) → (⟨S150000x1, .f32⟩ : BufTy).Contents (Elt F) → (⟨S50000x1, .f32⟩ : BufTy).Contents (Elt F)) ::
  nullary main_cst_2 (constant S_ .f32 0x3F800000#32) ::
  unary main_cst_2 main_v17 (broadcastInDim S50000x1 ![] bcast_S_S50000x1 : (⟨S_, .f32⟩ : BufTy).Contents (Elt F) → (⟨S50000x1, .f32⟩ : BufTy).Contents (Elt F)) ::
  binary main_v16 main_v17 main_v18 (maximumf : (⟨S50000x1, .f32⟩ : BufTy).Contents (Elt F) → (⟨S50000x1, .f32⟩ : BufTy).Contents (Elt F) → (⟨S50000x1, .f32⟩ : BufTy).Contents (Elt F)) ::
  unary main_v18 main_v19 (broadcastInDim S50000x256 ![0, 1] bcast_S50000x1_S50000x256_0_1 : (⟨S50000x1, .f32⟩ : BufTy).Contents (Elt F) → (⟨S50000x256, .f32⟩ : BufTy).Contents (Elt F)) ::
  binary main_v12 main_v19 main_v20 (Host.divf : (⟨S50000x256, .f32⟩ : BufTy).Contents (Elt F) → (⟨S50000x256, .f32⟩ : BufTy).Contents (Elt F) → (⟨S50000x256, .f32⟩ : BufTy).Contents (Elt F)) ::
  nullary main_cst_3 (constant S_ .f32 0x00000000#32) ::
  unary main_cst_3 main_v21 (broadcastInDim S50000x256 ![] bcast_S_S50000x256 : (⟨S_, .f32⟩ : BufTy).Contents (Elt F) → (⟨S50000x256, .f32⟩ : BufTy).Contents (Elt F)) ::
  unary main_arg5 main_v22 (broadcastInDim S150000x1 ![0] bcast_S150000_S150000x1_0 : (⟨S150000, .i32⟩ : BufTy).Contents (Elt F) → (⟨S150000x1, .i32⟩ : BufTy).Contents (Elt F)) ::
  ternary main_v21 main_v22 main_v9 main_v23 ((fun x i u => Host.scatterAdd scatter_S50000x256_S150000x1_S150000x256_1_0_0_1 x i u) : (⟨S50000x256, .f32⟩ : BufTy).Contents (Elt F) → (⟨S150000x1, .i32⟩ : BufTy).Contents (Elt F) → (⟨S150000x256, .f32⟩ : BufTy).Contents (Elt F) → (⟨S50000x256, .f32⟩ : BufTy).Contents (Elt F)) ::
  nullary main_cst_4 (constant S_ .f32 0x3F800000#32) ::
  unary main_cst_4 main_v24 (broadcastInDim S150000x1 ![] bcast_S_S150000x1 : (⟨S_, .f32⟩ : BufTy).Contents (Elt F) → (⟨S150000x1, .f32⟩ : BufTy).Contents (Elt F)) ::
  nullary main_cst_5 (constant S_ .f32 0x00000000#32) ::
  unary main_cst_5 main_v25 (broadcastInDim S50000x1 ![] bcast_S_S50000x1 : (⟨S_, .f32⟩ : BufTy).Contents (Elt F) → (⟨S50000x1, .f32⟩ : BufTy).Contents (Elt F)) ::
  unary main_arg5 main_v26 (broadcastInDim S150000x1 ![0] bcast_S150000_S150000x1_0 : (⟨S150000, .i32⟩ : BufTy).Contents (Elt F) → (⟨S150000x1, .i32⟩ : BufTy).Contents (Elt F)) ::
  ternary main_v25 main_v26 main_v24 main_v27 ((fun x i u => Host.scatterAdd scatter_S50000x1_S150000x1_S150000x1_1_0_0_1 x i u) : (⟨S50000x1, .f32⟩ : BufTy).Contents (Elt F) → (⟨S150000x1, .i32⟩ : BufTy).Contents (Elt F) → (⟨S150000x1, .f32⟩ : BufTy).Contents (Elt F) → (⟨S50000x1, .f32⟩ : BufTy).Contents (Elt F)) ::
  nullary main_cst_6 (constant S_ .f32 0x3F800000#32) ::
  unary main_cst_6 main_v28 (broadcastInDim S50000x1 ![] bcast_S_S50000x1 : (⟨S_, .f32⟩ : BufTy).Contents (Elt F) → (⟨S50000x1, .f32⟩ : BufTy).Contents (Elt F)) ::
  binary main_v27 main_v28 main_v29 (maximumf : (⟨S50000x1, .f32⟩ : BufTy).Contents (Elt F) → (⟨S50000x1, .f32⟩ : BufTy).Contents (Elt F) → (⟨S50000x1, .f32⟩ : BufTy).Contents (Elt F)) ::
  unary main_v29 main_v30 (broadcastInDim S50000x256 ![0, 1] bcast_S50000x1_S50000x256_0_1 : (⟨S50000x1, .f32⟩ : BufTy).Contents (Elt F) → (⟨S50000x256, .f32⟩ : BufTy).Contents (Elt F)) ::
  binary main_v23 main_v30 main_v31 (Host.divf : (⟨S50000x256, .f32⟩ : BufTy).Contents (Elt F) → (⟨S50000x256, .f32⟩ : BufTy).Contents (Elt F) → (⟨S50000x256, .f32⟩ : BufTy).Contents (Elt F)) ::
  nullary main_c (constantI S_ 32 0#32) ::
  unary main_c main_v32 (broadcastInDim S150000 ![] bcast_S_S150000 : (⟨S_, .i32⟩ : BufTy).Contents (Elt F) → (⟨S150000, .i32⟩ : BufTy).Contents (Elt F)) ::
  binary main_arg2 main_v32 main_v33 (cmpi .slt : (⟨S150000, .i32⟩ : BufTy).Contents (Elt F) → (⟨S150000, .i32⟩ : BufTy).Contents (Elt F) → (⟨S150000, .i1⟩ : BufTy).Contents (Elt F)) ::
  nullary main_c_7 (constantI S_ 32 50000#32) ::
  unary main_c_7 main_v34 (broadcastInDim S150000 ![] bcast_S_S150000 : (⟨S_, .i32⟩ : BufTy).Contents (Elt F) → (⟨S150000, .i32⟩ : BufTy).Contents (Elt F)) ::
  binary main_arg2 main_v34 main_v35 (addi : (⟨S150000, .i32⟩ : BufTy).Contents (Elt F) → (⟨S150000, .i32⟩ : BufTy).Contents (Elt F) → (⟨S150000, .i32⟩ : BufTy).Contents (Elt F)) ::
  ternary main_v33 main_v35 main_arg2 main_v36 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) ::
  unary main_v36 main_v37 (broadcastInDim S150000x1 ![0] bcast_S150000_S150000x1_0 : (⟨S150000, .i32⟩ : BufTy).Contents (Elt F) → (⟨S150000x1, .i32⟩ : BufTy).Contents (Elt F)) ::
  binary main_v20 main_v37 main_v38 ((fun x i => Host.gather gather_S50000x256_S150000x1_S150000x256_1_0_n_n_0_1_1256 x i) : (⟨S50000x256, .f32⟩ : BufTy).Contents (Elt F) → (⟨S150000x1, .i32⟩ : BufTy).Contents (Elt F) → (⟨S150000x256, .f32⟩ : BufTy).Contents (Elt F)) ::
  nullary main_c_8 (constantI S_ 32 0#32) ::
  unary main_c_8 main_v39 (broadcastInDim S150000 ![] bcast_S_S150000 : (⟨S_, .i32⟩ : BufTy).Contents (Elt F) → (⟨S150000, .i32⟩ : BufTy).Contents (Elt F)) ::
  binary main_arg3 main_v39 main_v40 (cmpi .slt : (⟨S150000, .i32⟩ : BufTy).Contents (Elt F) → (⟨S150000, .i32⟩ : BufTy).Contents (Elt F) → (⟨S150000, .i1⟩ : BufTy).Contents (Elt F)) ::
  nullary main_c_9 (constantI S_ 32 50000#32) ::
  unary main_c_9 main_v41 (broadcastInDim S150000 ![] bcast_S_S150000 : (⟨S_, .i32⟩ : BufTy).Contents (Elt F) → (⟨S150000, .i32⟩ : BufTy).Contents (Elt F)) ::
  binary main_arg3 main_v41 main_v42 (addi : (⟨S150000, .i32⟩ : BufTy).Contents (Elt F) → (⟨S150000, .i32⟩ : BufTy).Contents (Elt F) → (⟨S150000, .i32⟩ : BufTy).Contents (Elt F)) ::
  ternary main_v40 main_v42 main_arg3 main_v43 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) ::
  unary main_v43 main_v44 (broadcastInDim S150000x1 ![0] bcast_S150000_S150000x1_0 : (⟨S150000, .i32⟩ : BufTy).Contents (Elt F) → (⟨S150000x1, .i32⟩ : BufTy).Contents (Elt F)) ::
  binary main_v31 main_v44 main_v45 ((fun x i => Host.gather gather_S50000x256_S150000x1_S150000x256_1_0_n_n_0_1_1256 x i) : (⟨S50000x256, .f32⟩ : BufTy).Contents (Elt F) → (⟨S150000x1, .i32⟩ : BufTy).Contents (Elt F) → (⟨S150000x256, .f32⟩ : BufTy).Contents (Elt F)) ::
  nary ![main_arg0, main_v38, main_v45] main_v46 (fun u => concatenate S150000x768 1 [⟨S150000x256, u 0⟩, ⟨S150000x256, u 1⟩, ⟨S150000x256, u 2⟩] concatenates_S150000x256_S150000x256_S150000x256_S150000x768_d1) ::
  binary main_v46 main_arg10 main_v47 ((fun l r => Host.dotGeneral dot_S150000x768_S768x256_S150000x256_1_0_0_1_n_n none l r) : (⟨S150000x768, .f32⟩ : BufTy).Contents (Elt F) → (⟨S768x256, .f32⟩ : BufTy).Contents (Elt F) → (⟨S150000x256, .f32⟩ : BufTy).Contents (Elt F)) ::
  unary main_arg11 main_v48 (broadcastInDim S1x256 ![1] bcast_S256_S1x256_1 : (⟨S256, .f32⟩ : BufTy).Contents (Elt F) → (⟨S1x256, .f32⟩ : BufTy).Contents (Elt F)) ::
  unary main_v48 main_v49 (broadcastInDim S150000x256 ![0, 1] bcast_S1x256_S150000x256_0_1 : (⟨S1x256, .f32⟩ : BufTy).Contents (Elt F) → (⟨S150000x256, .f32⟩ : BufTy).Contents (Elt F)) ::
  binary main_v47 main_v49 main_v50 (addf : (⟨S150000x256, .f32⟩ : BufTy).Contents (Elt F) → (⟨S150000x256, .f32⟩ : BufTy).Contents (Elt F) → (⟨S150000x256, .f32⟩ : BufTy).Contents (Elt F)) ::
  nullary main_c_10 (constantI S_ 32 0#32) ::
  unary main_c_10 main_v51 (broadcastInDim S150000 ![] bcast_S_S150000 : (⟨S_, .i32⟩ : BufTy).Contents (Elt F) → (⟨S150000, .i32⟩ : BufTy).Contents (Elt F)) ::
  binary main_arg4 main_v51 main_v52 (cmpi .slt : (⟨S150000, .i32⟩ : BufTy).Contents (Elt F) → (⟨S150000, .i32⟩ : BufTy).Contents (Elt F) → (⟨S150000, .i1⟩ : BufTy).Contents (Elt F)) ::
  nullary main_c_11 (constantI S_ 32 50000#32) ::
  unary main_c_11 main_v53 (broadcastInDim S150000 ![] bcast_S_S150000 : (⟨S_, .i32⟩ : BufTy).Contents (Elt F) → (⟨S150000, .i32⟩ : BufTy).Contents (Elt F)) ::
  binary main_arg4 main_v53 main_v54 (addi : (⟨S150000, .i32⟩ : BufTy).Contents (Elt F) → (⟨S150000, .i32⟩ : BufTy).Contents (Elt F) → (⟨S150000, .i32⟩ : BufTy).Contents (Elt F)) ::
  ternary main_v52 main_v54 main_arg4 main_v55 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) ::
  unary main_v55 main_v56 (broadcastInDim S150000x1 ![0] bcast_S150000_S150000x1_0 : (⟨S150000, .i32⟩ : BufTy).Contents (Elt F) → (⟨S150000x1, .i32⟩ : BufTy).Contents (Elt F)) ::
  binary main_v20 main_v56 main_v57 ((fun x i => Host.gather gather_S50000x256_S150000x1_S150000x256_1_0_n_n_0_1_1256 x i) : (⟨S50000x256, .f32⟩ : BufTy).Contents (Elt F) → (⟨S150000x1, .i32⟩ : BufTy).Contents (Elt F) → (⟨S150000x256, .f32⟩ : BufTy).Contents (Elt F)) ::
  nullary main_c_12 (constantI S_ 32 0#32) ::
  unary main_c_12 main_v58 (broadcastInDim S150000 ![] bcast_S_S150000 : (⟨S_, .i32⟩ : BufTy).Contents (Elt F) → (⟨S150000, .i32⟩ : BufTy).Contents (Elt F)) ::
  binary main_arg5 main_v58 main_v59 (cmpi .slt : (⟨S150000, .i32⟩ : BufTy).Contents (Elt F) → (⟨S150000, .i32⟩ : BufTy).Contents (Elt F) → (⟨S150000, .i1⟩ : BufTy).Contents (Elt F)) ::
  nullary main_c_13 (constantI S_ 32 50000#32) ::
  unary main_c_13 main_v60 (broadcastInDim S150000 ![] bcast_S_S150000 : (⟨S_, .i32⟩ : BufTy).Contents (Elt F) → (⟨S150000, .i32⟩ : BufTy).Contents (Elt F)) ::
  binary main_arg5 main_v60 main_v61 (addi : (⟨S150000, .i32⟩ : BufTy).Contents (Elt F) → (⟨S150000, .i32⟩ : BufTy).Contents (Elt F) → (⟨S150000, .i32⟩ : BufTy).Contents (Elt F)) ::
  ternary main_v59 main_v61 main_arg5 main_v62 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)) ::
  unary main_v62 main_v63 (broadcastInDim S150000x1 ![0] bcast_S150000_S150000x1_0 : (⟨S150000, .i32⟩ : BufTy).Contents (Elt F) → (⟨S150000x1, .i32⟩ : BufTy).Contents (Elt F)) ::
  binary main_v31 main_v63 main_v64 ((fun x i => Host.gather gather_S50000x256_S150000x1_S150000x256_1_0_n_n_0_1_1256 x i) : (⟨S50000x256, .f32⟩ : BufTy).Contents (Elt F) → (⟨S150000x1, .i32⟩ : BufTy).Contents (Elt F) → (⟨S150000x256, .f32⟩ : BufTy).Contents (Elt F)) ::
  nary ![main_arg1, main_v57, main_v64] main_v65 (fun u => concatenate S150000x768 1 [⟨S150000x256, u 0⟩, ⟨S150000x256, u 1⟩, ⟨S150000x256, u 2⟩] concatenates_S150000x256_S150000x256_S150000x256_S150000x768_d1) ::
  binary main_v65 main_arg12 main_v66 ((fun l r => Host.dotGeneral dot_S150000x768_S768x256_S150000x256_1_0_0_1_n_n none l r) : (⟨S150000x768, .f32⟩ : BufTy).Contents (Elt F) → (⟨S768x256, .f32⟩ : BufTy).Contents (Elt F) → (⟨S150000x256, .f32⟩ : BufTy).Contents (Elt F)) ::
  unary main_arg13 main_v67 (broadcastInDim S1x256 ![1] bcast_S256_S1x256_1 : (⟨S256, .f32⟩ : BufTy).Contents (Elt F) → (⟨S1x256, .f32⟩ : BufTy).Contents (Elt F)) ::
  unary main_v67 main_v68 (broadcastInDim S150000x256 ![0, 1] bcast_S1x256_S150000x256_0_1 : (⟨S1x256, .f32⟩ : BufTy).Contents (Elt F) → (⟨S150000x256, .f32⟩ : BufTy).Contents (Elt F)) ::
  binary main_v66 main_v68 main_v69 (addf : (⟨S150000x256, .f32⟩ : BufTy).Contents (Elt F) → (⟨S150000x256, .f32⟩ : BufTy).Contents (Elt F) → (⟨S150000x256, .f32⟩ : BufTy).Contents (Elt F)) ::
  []

set_option maxRecDepth 8192 in
set_option maxHeartbeats 40000000 in
/-- @main is that straight line: its two windows in order, @leaky_relu's and @_where's definitions unfolded at the
    calls and the records at their fields; both sides are one chain of `hlo` steps once sequencing is
    reassociated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxHeartbeats 40000000 in
/-- Every operation touches TensorCore references only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nary_bufs_sub .., binary_bufs_sub .., unary_bufs_sub ..,
    unary_bufs_sub .., binary_bufs_sub ..⟩

set_option maxRecDepth 8192 in
set_option maxHeartbeats 40000000 in
/-- From any memory with zero counters, every weakly fair execution of @main terminates, and every final state has
    each buffer at the fold of the 98 operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibConcatenate3.lean ====
/-
  A concatenation of THREE pieces as a function of its operands.

  `concatenate t a [⟨s₁, x₁⟩, ⟨s₂, x₂⟩, ⟨s₃, x₃⟩] h` holds its operands inside dependent pairs `⟨sₖ, xₖ⟩`, and its
  evidence `h` is stated of the list of the pairs' shapes. `concatenate3_congr`: at fixed shapes the concatenation
  depends on the three operands only (the evidence does not change: the shapes do not), so equal operands give
  equal concatenations. `vec3_at0` / `vec3_at1` / `vec3_at2`: a literal three-element vector at each of its
  numerals is the entry written there; each holds by computation, so the two sides are interchangeable also where
  a type depends on them.
-/
import Idealize.ShloMosaic.Lib.Pipeline.Value

namespace Idealize.ShloMosaic

/-- A three-piece concatenation is a function of its three operands: equal operands, piece by piece at the same
    shapes, give equal concatenations (under the same evidence, which only mentions the shapes). -/
theorem concatenate3_congr {α : Type} {t s₁ s₂ s₃ : Shape} (a : Fin t.rank)
    {x₁ x₁' : s₁.Idx → α} {x₂ x₂' : s₂.Idx → α} {x₃ x₃' : s₃.Idx → α}
    (h : Shape.Concatenates [s₁, s₂, s₃] t a) (e₁ : x₁ = x₁') (e₂ : x₂ = x₂') (e₃ : x₃ = x₃') :
    concatenate t a [⟨s₁, x₁⟩, ⟨s₂, x₂⟩, ⟨s₃, x₃⟩] h = concatenate t a [⟨s₁, x₁'⟩, ⟨s₂, x₂'⟩, ⟨s₃, x₃'⟩] h := by
  subst e₁ e₂ e₃; rfl

/-- A literal three-element vector at `0` is its first entry. -/
theorem vec3_at0 {α : Type} (a b c : α) : (![a, b, c] : Fin 3 → α) 0 = a := rfl
/-- A literal three-element vector at `1` is its second entry. -/
theorem vec3_at1 {α : Type} (a b c : α) : (![a, b, c] : Fin 3 → α) 1 = b := rfl
/-- A literal three-element vector at `2` is its third entry. -/
theorem vec3_at2 {α : Type} (a b c : α) : (![a, b, c] : Fin 3 → α) 2 = c := rfl

end Idealize.ShloMosaic
-- ==== Proof.RefRun.lean ====
/-
  The reference program's run, read at its two results.

  `RefOps.run_main`: every weakly fair execution of @main terminates with each buffer at the fold of the 98
  operations' results over the launch contents. Read at one buffer the fold is a computation: an operation's
  result at its own result buffer is its function's value of its operands' contents, at any other buffer what was
  there before. At `main_v50` and `main_v69` that computation gives the operations' composed term of the arguments'
  contents, which is `Cert.Spec.out0` / `Cert.Spec.out1` of them once the definitions of Spec.lean are unfolded
  (`out0_eq`, `out1_eq`: the two sides are the same term, so the last step is by computation; the two calls of
  @leaky_relu contribute `Cert.Spec.leaky`, their typed buffers' transports being the identity at these literal
  buffers). No operation writes an argument's buffer, so each argument ends as it started (`argK_eq`). `run` puts
  the sixteen equations under the run.
-/
import proofs.«136880_j57131654971883_2_alg».proof.Proof.Gen.ReferenceIdeal
import proofs.«136880_j57131654971883_2_alg».proof.Proof.Spec
import proofs.«136880_j57131654971883_2_alg».proof.Proof.RefOps
import proofs.«136880_j57131654971883_2_alg».proof.Proof.LibConcatenate3
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local congr] concatenate3_congr

/-- The fold of the operations' results read at one buffer, in one pass: the fold unrolled, each operation's
    result at its own result buffer its function's value of the operands' contents, at any other buffer what was
    there (the two buffers told apart as references), and a concatenation's three operands each read at its own
    buffer. -/
macro "results_simp" : tactic =>
  `(tactic| (simp (disch := decide) only [after_cons, after_nil,
      nullary_result', unary_result', binary_result', ternary_result', nary_result',
      nullary_result_ne', unary_result_ne', binary_result_ne', ternary_result_ne', nary_result_ne',
      vec3_at0, vec3_at1, vec3_at2]))

set_option maxRecDepth 8192 in
set_option maxHeartbeats 4000000 in
/-- After the 98 operations `main_v50` holds `Cert.Spec.out0` of the arguments' contents. -/
theorem out0_eq (V : Valuation τ sig (Elt F)) :
    after ops V (main_v50 : DevRef τ sig)
      = Cert.Spec.out0 (V (main_arg0 : DevRef τ sig)) (V (main_arg1 : DevRef τ sig)) (V (main_arg2 : DevRef τ sig)) (V (main_arg3 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  results_simp
  all_goals rfl

set_option maxRecDepth 8192 in
set_option maxHeartbeats 4000000 in
/-- After the 98 operations `main_v69` holds `Cert.Spec.out1` of the arguments' contents. -/
theorem out1_eq (V : Valuation τ sig (Elt F)) :
    after ops V (main_v69 : DevRef τ sig)
      = Cert.Spec.out1 (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg12 : DevRef τ sig)) (V (main_arg13 : DevRef τ sig)) := by
  results_simp
  all_goals rfl

/-! No operation writes an argument's buffer: after the 98 operations each holds what it held. -/

set_option maxRecDepth 8192 in
set_option maxHeartbeats 4000000 in
theorem arg0_eq (V : Valuation τ sig (Elt F)) :
    after ops V (main_arg0 : DevRef τ sig) = V (main_arg0 : DevRef τ sig) := by
  results_simp

set_option maxRecDepth 8192 in
set_option maxHeartbeats 4000000 in
theorem arg1_eq (V : Valuation τ sig (Elt F)) :
    after ops V (main_arg1 : DevRef τ sig) = V (main_arg1 : DevRef τ sig) := by
  results_simp

set_option maxRecDepth 8192 in
set_option maxHeartbeats 4000000 in
theorem arg2_eq (V : Valuation τ sig (Elt F)) :
    after ops V (main_arg2 : DevRef τ sig) = V (main_arg2 : DevRef τ sig) := by
  results_simp

set_option maxRecDepth 8192 in
set_option maxHeartbeats 4000000 in
theorem arg3_eq (V : Valuation τ sig (Elt F)) :
    after ops V (main_arg3 : DevRef τ sig) = V (main_arg3 : DevRef τ sig) := by
  results_simp

set_option maxRecDepth 8192 in
set_option maxHeartbeats 4000000 in
theorem arg4_eq (V : Valuation τ sig (Elt F)) :
    after ops V (main_arg4 : DevRef τ sig) = V (main_arg4 : DevRef τ sig) := by
  results_simp

set_option maxRecDepth 8192 in
set_option maxHeartbeats 4000000 in
theorem arg5_eq (V : Valuation τ sig (Elt F)) :
    after ops V (main_arg5 : DevRef τ sig) = V (main_arg5 : DevRef τ sig) := by
  results_simp

set_option maxRecDepth 8192 in
set_option maxHeartbeats 4000000 in
theorem arg6_eq (V : Valuation τ sig (Elt F)) :
    after ops V (main_arg6 : DevRef τ sig) = V (main_arg6 : DevRef τ sig) := by
  results_simp

set_option maxRecDepth 8192 in
set_option maxHeartbeats 4000000 in
theorem arg7_eq (V : Valuation τ sig (Elt F)) :
    after ops V (main_arg7 : DevRef τ sig) = V (main_arg7 : DevRef τ sig) := by
  results_simp

set_option maxRecDepth 8192 in
set_option maxHeartbeats 4000000 in
theorem arg8_eq (V : Valuation τ sig (Elt F)) :
    after ops V (main_arg8 : DevRef τ sig) = V (main_arg8 : DevRef τ sig) := by
  results_simp

set_option maxRecDepth 8192 in
set_option maxHeartbeats 4000000 in
theorem arg9_eq (V : Valuation τ sig (Elt F)) :
    after ops V (main_arg9 : DevRef τ sig) = V (main_arg9 : DevRef τ sig) := by
  results_simp

set_option maxRecDepth 8192 in
set_option maxHeartbeats 4000000 in
theorem arg10_eq (V : Valuation τ sig (Elt F)) :
    after ops V (main_arg10 : DevRef τ sig) = V (main_arg10 : DevRef τ sig) := by
  results_simp

set_option maxRecDepth 8192 in
set_option maxHeartbeats 4000000 in
theorem arg11_eq (V : Valuation τ sig (Elt F)) :
    after ops V (main_arg11 : DevRef τ sig) = V (main_arg11 : DevRef τ sig) := by
  results_simp

set_option maxRecDepth 8192 in
set_option maxHeartbeats 4000000 in
theorem arg12_eq (V : Valuation τ sig (Elt F)) :
    after ops V (main_arg12 : DevRef τ sig) = V (main_arg12 : DevRef τ sig) := by
  results_simp

set_option maxRecDepth 8192 in
set_option maxHeartbeats 4000000 in
theorem arg13_eq (V : Valuation τ sig (Elt F)) :
    after ops V (main_arg13 : DevRef τ sig) = V (main_arg13 : DevRef τ sig) := by
  results_simp

/-- On every device, for any float values, from any memory with zero counters: every weakly fair execution of
    @main terminates with `main_v50` at `Cert.Spec.out0` and `main_v69` at `Cert.Spec.out1` of the arguments' launch
    contents, and the fourteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = Cert.Spec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v69) = Cert.Spec.out1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v50).trans (out0_eq _), (h c main_v69).trans (out1_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_main m ρ)

end Cert.ReferenceIdeal.RefRun

end
-- ==== Proof.lean ====
/-
  The certificate of a two-edge-type message-passing layer: a four-region kernel program against its jnp reference,
  equal at the ideal instance (floats the extended reals, every operation exact, a change of float format the identity).

  Both programs compute, for each edge type, the messages `leaky (e · W + b)`, the mean of the messages arriving at
  each node, the rows of those means at the edges' source and destination nodes, and the update
  `[e | rows_s | rows_d] · We + be`.  The kernel program computes the messages and the updates block by block in
  kernel regions (30 blocks of 5000 edges, 50 blocks of 3000 edges) and contracts the update's 768 features as three
  groups of 256; the reference contracts them at once.  The two agree because each block is a restriction of the
  whole-array function, the host operations between the regions are the reference's own, and a sum over 768 terms is
  the three sums over 256 terms added (addition of extended reals is commutative and associative; no finiteness is
  needed, so the precondition is never opened).

  The pieces: `Cert.Spec` (the functions both sides compute), `Cert.ReferenceIdeal.RefRun.run` (the reference's run),
  `Cert.KernelIdeal.Run.run_W8` (the kernel program's run with its results named), `Cert.KernelIdeal.Value.out0` /
  `out1` (those results as `Cert.Spec.out0` / `out1` of the arguments).
-/
import proofs.«136880_j57131654971883_2_alg».proof.Defs
import proofs.«136880_j57131654971883_2_alg».proof.Proof.Gen.Kernel
import proofs.«136880_j57131654971883_2_alg».proof.Proof.Gen.Kernel.Frame
import proofs.«136880_j57131654971883_2_alg».proof.Proof.Gen.KernelIdeal
import proofs.«136880_j57131654971883_2_alg».proof.Proof.Gen.KernelIdeal.Frame
import proofs.«136880_j57131654971883_2_alg».proof.Proof.Gen.ReferenceIdeal
import proofs.«136880_j57131654971883_2_alg».proof.Proof.Gen.Pre_finite_inputs
import proofs.«136880_j57131654971883_2_alg».proof.Proof.KernelRun
import proofs.«136880_j57131654971883_2_alg».proof.Proof.KernelValue
import proofs.«136880_j57131654971883_2_alg».proof.Proof.RefRun

noncomputable section

namespace Cert.Proof

open Idealize.ShloMosaic Idealize.SL.Sem

/-- The word-level kernel program runs and leaves its arguments: the generated frame. -/
theorem frame_k : Cert.frame_Kernel := fun m ρ _ => Cert.Kernel.Gen.frame m ρ

/-- The idealized kernel program runs and leaves its arguments: the generated frame. -/
theorem frame_ki : Cert.frame_KernelIdeal := fun m ρ _ => Cert.KernelIdeal.Gen.frame m ρ

/-- The idealized reference runs and leaves its arguments: its run with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The ideal pass rewrote nothing. -/
theorem preserves : Cert.preserves_Kernel_KernelIdeal := trivial

/-- From memories agreeing on the arguments both idealized programs end with `Cert.Spec.out0` and `Cert.Spec.out1` of
    the arguments in their result buffers. -/
theorem algebraic : Cert.algebraic_KernelIdeal_ReferenceIdeal := by
  intro m ρ m' ρ' _ hagree
  refine ⟨_, _, (θ_run Cert.KernelIdeal.defs _ _).mono
    (fun r h c => ⟨(h c).1.trans (Cert.KernelIdeal.Value.out0 m ρ c), (h c).2.1.trans (Cert.KernelIdeal.Value.out1 m ρ c), (h c).2.2⟩)
    (Cert.KernelIdeal.Run.run_W8 (F := Ideal) m ρ), ?_⟩
  refine (θ_run Cert.ReferenceIdeal.defs _ _).mono (fun r h c => ?_) (Cert.ReferenceIdeal.RefRun.run (F := Ideal) m' ρ')
  obtain ⟨h50, h69, hargs⟩ := h c
  obtain ⟨a0, a1, a2, a3, a4, a5, a6, a7, a8, a9, a10, a11, a12, a13⟩ := hagree c
  refine ⟨h50.trans ?_, h69.trans ?_, hargs⟩
  · rw [a0, a1, a2, a3, a5, a6, a7, a8, a9, a10, a11]
  · rw [a0, a1, a3, a4, a5, a6, a7, a8, a9, a12, a13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
